-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg8 : FVec F S128 .f32) (main_arg9 : FVec F S128x40 .f32) (main_arg10 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg9
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg10
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : IVec S100000x128 1) (main_arg4 : IVec S100000x128 1) (main_arg5 : FVec F S128x128 .f32) (main_arg6 : FVec F S128 .f32) (main_arg7 : FVec F S128x128 .f32) (main_arg8 : FVec F S128 .f32) (main_arg9 : FVec F S128x40 .f32) (main_arg10 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg6
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x40 : Shape := ⟨2, ![1, 40]⟩
abbrev S5000x128 : Shape := ⟨2, ![5000, 128]⟩
abbrev S1600000x128 : Shape := ⟨2, ![1600000, 128]⟩
abbrev S5000x1 : Shape := ⟨2, ![5000, 1]⟩
abbrev S100000x40 : Shape := ⟨2, ![100000, 40]⟩
abbrev S5000x40 : Shape := ⟨2, ![5000, 40]⟩
abbrev S1600000x40 : Shape := ⟨2, ![1600000, 40]⟩

abbrev nBuf : Space → Nat
  | .hbm => 75
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000x128, .i1⟩
  | .hbm, ⟨4, _⟩ => ⟨S100000x128, .i1⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x40, .f32⟩
  | .hbm, ⟨10, _⟩ => ⟨S40, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S1x128, .f32⟩
  | .hbm, ⟨31, _⟩ => ⟨S1x40, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x40, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x40, .f32⟩
  | .hbm, ⟨70, _⟩ => ⟨S_, .f32⟩
  | .hbm, ⟨71, _⟩ => ⟨S100000x40, .f32⟩
  | .hbm, ⟨72, _⟩ => ⟨S1600000x1, .i32⟩
  | .hbm, ⟨73, _⟩ => ⟨S100000x40, .f32⟩
  | .hbm, ⟨74, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S5000x40, .f32⟩
  | .local _ .vmem, ⟨24, _⟩ => ⟨S5000x40, .f32⟩
  | .local _ .vmem, ⟨25, _⟩ => ⟨S5000x40, .f32⟩
  | .local _ .vmem, ⟨26, _⟩ => ⟨S5000x40, .f32⟩
  | .local _ .vmem, ⟨27, _⟩ => ⟨S5000x1, .f32⟩
  | .local _ .vmem, ⟨28, _⟩ => ⟨S5000x1, .f32⟩
  | .local _ .vmem, ⟨29, _⟩ => ⟨S1x40, .f32⟩
  | .local _ .vmem, ⟨30, _⟩ => ⟨S5000x40, .f32⟩
  | .local _ .vmem, ⟨31, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_c_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S5000x40_S5000x40 : S5000x40.ShapeCasts S5000x40
  broadcasts_S5000x1_S5000x40 : S5000x1.Broadcasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x40.size a ≤ S128x40.size a
  hwx2_4 : ∀ i : grid2.Coords, EltTy.bits .f32 = 32 ∨ (Rect.block (s := S128x40) S128x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S100000x40.size a
  hwx2_5 : ∀ i : grid2.Coords, EltTy.bits .f32 = 32 ∨ (Rect.block (s := S100000x40) S5000x40.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S100000x40.size a
  hwx3_3 : ∀ i : grid3.Coords, EltTy.bits .f32 = 32 ∨ (Rect.block (s := S100000x40) S5000x40.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000x128, .i1⟩
  | .hbm, ⟨4, _⟩ => ⟨S100000x128, .i1⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x40, .f32⟩
  | .hbm, ⟨10, _⟩ => ⟨S40, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x40, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x40, .f32⟩
  | .hbm, ⟨96, _⟩ => ⟨S_, .f32⟩
  | .hbm, ⟨97, _⟩ => ⟨S100000x40, .f32⟩
  | .hbm, ⟨98, _⟩ => ⟨S1600000x1, .i32⟩
  | .hbm, ⟨99, _⟩ => ⟨S100000x40, .f32⟩
  | .hbm, ⟨100, _⟩ => ⟨S100000x1, .f32⟩
  | .hbm, ⟨101, _⟩ => ⟨S100000x40, .f32⟩
  | .hbm, ⟨102, _⟩ => ⟨S100000x40, .f32⟩
  | .hbm, ⟨103, _⟩ => ⟨S1x40, .f32⟩
  | .hbm, ⟨104, _⟩ => ⟨S100000x40, .f32⟩
  | .hbm, ⟨105, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_call1_v0 : Ref sig .tc := ⟨.hbm, 53, rfl⟩
abbrev main_call1_v1 : Ref sig .tc := ⟨.hbm, 54, rfl⟩
abbrev main_v30 : Ref sig .tc := ⟨.hbm, 55, rfl⟩
abbrev main_v31 : Ref sig .tc := ⟨.hbm, 56, rfl⟩
abbrev main_c_8 : Ref sig .tc := ⟨.hbm, 57, rfl⟩
abbrev main_v32 : Ref sig .tc := ⟨.hbm, 58, rfl⟩
abbrev main_v33 : Ref sig .tc := ⟨.hbm, 59, rfl⟩
abbrev main_c_9 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_10 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call2_cst : Ref sig .tc := ⟨.hbm, 76, rfl⟩
abbrev main_call2_v0 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_call3_v0 : Ref sig .tc := ⟨.hbm, 83, rfl⟩
abbrev main_call3_v1 : Ref sig .tc := ⟨.hbm, 84, rfl⟩
abbrev main_v51 : Ref sig .tc := ⟨.hbm, 85, rfl⟩
abbrev main_v52 : Ref sig .tc := ⟨.hbm, 86, rfl⟩
abbrev main_c_13 : Ref sig .tc := ⟨.hbm, 87, rfl⟩
abbrev main_v53 : Ref sig .tc := ⟨.hbm, 88, rfl⟩
abbrev main_v54 : Ref sig .tc := ⟨.hbm, 89, rfl⟩
abbrev main_c_14 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_15 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.Layers.lean ====
/-
  The three-layer graph convolution as the reference computes it, cut into its stages as whole-array functions.
  With `N = 100000` nodes, `E = 1600000` edges (`src`, `dst`), and extended-real arithmetic:

  * `scale dst`       — the per-node factor `1 / (max(deg, 1) + 0)`, `deg` the scatter-add of ones over `dst`;
  * `gatherIdx src`   — the gather's row numbers: `src`, a negative one moved up by `N`, as a column `[E, 1]`;
  * `aggregate x`     — rows of `x` gathered at `src` and summed into the rows `dst` of a zero matrix (width 128 or 40);
  * `normalize a s b` — `a[p, c] · s[p] + b[c]`, the factor placed as a column and the bias as a row, both broadcast;
  * `dropout k h`     — where the mask bit `k[p, c]` is set `max(h, 0) / 0.5`, elsewhere `0`;
  * `dense x w`       — the matrix product `x · w`.

  The reference's result is `normalize (aggregate (dense (dropout … (normalize (aggregate (dense …)))) …))` — three
  rounds —, which `result_eq_stages` states against the reference program's composed term.
-/
import proofs.«171823_j91087666413880_1_alg».proof.Proof.Gen.ReferenceIdeal.Run
import Idealize.ShloMosaic.PureOps.Ideal

noncomputable section

namespace Cert.ReferenceIdeal.Stages

open Cert.ReferenceIdeal Cert.ReferenceIdeal.Gen Idealize.ShloMosaic Idealize.ShloMosaic.TcCoe Idealize.SL.Sem

/-- The per-node factor: one over the in-degree clamped below at one (plus the zero bias). -/
def scale (dst : IVec S1600000 32) : FVec Ideal S100000 .f32 :=
  Host.divf (broadcastInDim S100000 ![] bcast_S_S100000 (constant (F := Ideal) S_ .f32 0x3F800000#32))
    (addf (maximumf (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32)))
      (broadcastInDim S100000 ![] bcast_S_S100000 (constant (F := Ideal) S_ .f32 0x3F800000#32)))
      (broadcastInDim S100000 ![] bcast_S_S100000 (constant (F := Ideal) S_ .f32 0x00000000#32)))

/-- The gather's row numbers as a column: `src`, with a negative entry moved up by the number of nodes. -/
def gatherIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Rows gathered at `src` and summed into the rows `dst` of a zero matrix, width 128. -/
def aggregate128 (x : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x (gatherIdx src))

/-- The same, width 40. -/
def aggregate40 (x : FVec Ideal S100000x40 .f32) (src dst : IVec S1600000 32) : FVec Ideal S100000x40 .f32 :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 dst)
    (Host.gather gather_S100000x40_S1600000x1_S1600000x40_1_0_n_n_0_1_140 x (gatherIdx src))

/-- `a[p, c] · s[p] + b[c]`, width 128. -/
def normalize128 (a : FVec Ideal S100000x128 .f32) (s : FVec Ideal S100000 .f32) (b : FVec Ideal S128 .f32) : FVec Ideal S100000x128 .f32 :=
  addf (mulf a (broadcastInDim S100000x128 ![0, 1] bcast_S100000x1_S100000x128_0_1 (broadcastInDim S100000x1 ![0] bcast_S100000_S100000x1_0 s)))
    (broadcastInDim S100000x128 ![0, 1] bcast_S1x128_S100000x128_0_1 (broadcastInDim S1x128 ![1] bcast_S128_S1x128_1 b))

/-- `a[p, c] · s[p] + b[c]`, width 40. -/
def normalize40 (a : FVec Ideal S100000x40 .f32) (s : FVec Ideal S100000 .f32) (b : FVec Ideal S40 .f32) : FVec Ideal S100000x40 .f32 :=
  addf (mulf a (broadcastInDim S100000x40 ![0, 1] bcast_S100000x1_S100000x40_0_1 (broadcastInDim S100000x1 ![0] bcast_S100000_S100000x1_0 s)))
    (broadcastInDim S100000x40 ![0, 1] bcast_S1x40_S100000x40_0_1 (broadcastInDim S1x40 ![1] bcast_S40_S1x40_1 b))

/-- Where the mask bit is set `max(h, 0) / 0.5`, elsewhere `0`. -/
def dropout (k : IVec S100000x128 1) (h : FVec Ideal S100000x128 .f32) : FVec Ideal S100000x128 .f32 :=
  select k (Host.divf (maximumf h (broadcastInDim S100000x128 ![] bcast_S_S100000x128 (constant (F := Ideal) S_ .f32 0x00000000#32)))
      (broadcastInDim S100000x128 ![] bcast_S_S100000x128 (constant (F := Ideal) S_ .f32 0x3F000000#32)))
    (broadcastInDim S100000x128 ![] bcast_S_S100000x128 (id (constant (F := Ideal) S_ .f32 0x00000000#32)))

/-- The matrix product into width 128. -/
def dense128 (x : FVec Ideal S100000x128 .f32) (w : FVec Ideal S128x128 .f32) : FVec Ideal S100000x128 .f32 :=
  Host.dotGeneral dot_S100000x128_S128x128_S100000x128_1_0_0_1_n_n none x w

/-- The matrix product into width 40. -/
def dense40 (x : FVec Ideal S100000x128 .f32) (w : FVec Ideal S128x40 .f32) : FVec Ideal S100000x40 .f32 :=
  Host.dotGeneral dot_S100000x128_S128x40_S100000x40_1_0_0_1_n_n none x w

/-- One hidden round after the aggregation: scale and bias, clamp, drop, multiply by the next weight (width 128). -/
def round128 (a : FVec Ideal S100000x128 .f32) (s : FVec Ideal S100000 .f32) (b : FVec Ideal S128 .f32)
    (k : IVec S100000x128 1) (w : FVec Ideal S128x128 .f32) : FVec Ideal S100000x128 .f32 :=
  dense128 (dropout k (normalize128 a s b)) w

/-- The same into width 40. -/
def round40 (a : FVec Ideal S100000x128 .f32) (s : FVec Ideal S100000 .f32) (b : FVec Ideal S128 .f32)
    (k : IVec S100000x128 1) (w : FVec Ideal S128x40 .f32) : FVec Ideal S100000x40 .f32 :=
  dense40 (dropout k (normalize128 a s b)) w

/-- The whole network as the nest of its stages. -/
def network (x : FVec Ideal S100000x128 .f32) (src dst : IVec S1600000 32) (k1 k2 : IVec S100000x128 1)
    (w0 : FVec Ideal S128x128 .f32) (b0 : FVec Ideal S128 .f32) (w1 : FVec Ideal S128x128 .f32) (b1 : FVec Ideal S128 .f32)
    (w2 : FVec Ideal S128x40 .f32) (b2 : FVec Ideal S40 .f32) : FVec Ideal S100000x40 .f32 :=
  normalize40 (aggregate40 (round40 (aggregate128 (round128 (aggregate128 (dense128 x w0) src dst) (scale dst) b0 k1 w1) src dst)
    (scale dst) b1 k2 w2) src dst) (scale dst) b2

/-- The reference program's composed result is that nest, of the launch contents of its arguments. -/
theorem result_eq_stages (m : (ℓ : Loc nD τ sig) → Buf (Elt Ideal) ℓ) (c : Dev nD) :
    Cert.ReferenceIdeal.Value.res_main_v68 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.Value.res_main_v68 network normalize40 aggregate40 round40 aggregate128 round128 dense128 dense40 dropout
    normalize128 scale gatherIdx
  rfl

end Cert.ReferenceIdeal.Stages

end
-- ==== Proof.KernelRun.lean ====
/-
  The kernel program's run with its RESULT named. The program is four grid launches among stretches of host
  operations; the contents of every buffer at each boundary are a fold through the program (the stretch's operations
  applied to what the previous boundary left; a launch's arrays at what its write-backs leave), and the last boundary's
  contents are `W8`. Every weakly fair execution terminates with every unscoped buffer at `W8`: read at the eleven
  arguments this is the frame; read at the result buffer `main_v49` it names the result, which is what the value proof
  then walks back launch by launch.
-/
import proofs.«171823_j91087666413880_1_alg».proof.Proof.KernelIdealFrameP

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v49) = W8 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v49 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.RunValue

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.LibBroadcastEntry.lean ====
/-
  Broadcasts of small shapes read at one entry, for the shapes a dense layer with a per-row factor and a per-column
  bias meets:

  * a column `[a, 1]` broadcast over the columns of `[a, b]` — by `vector.broadcast` and by the host's
    `broadcast_in_dim` along `[0, 1]` — reads, at `(p, c)`, the column's entry `(p, 0)`;
  * a row `[1, b]` broadcast over the rows of `[a, b]` by `broadcast_in_dim` along `[0, 1]` reads, at `(p, c)`, the
    row's entry `(0, c)`;
  * a vector `[b]` placed as the row of `[1, b]` by `broadcast_in_dim` along `[1]` reads, at `(u, c)`, the vector's
    entry `c`;
  * a scalar broadcast to any shape reads the scalar everywhere.
-/
import Idealize.ShloMosaic.Lib.ValueLayout
import Idealize.ShloMosaic.Lib.Pipeline.Value

namespace Idealize.ShloMosaic.ValueIdx

variable {α : Type}

/-- A `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[a, 1]` column along `[0, 1]` to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[1, b]` row along `[0, 1]` to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's placing of a `[b]` vector as the row of `[1, b]` (along `[1]`) reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- The host's broadcast of a scalar to any shape reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Idealize.ShloMosaic.ValueIdx
-- ==== Proof.Payloads.lean ====
/-
  The arithmetic of the four kernel bodies, each read at ONE ENTRY `(p, q)` of the block it stores, at the ideal values
  (a change of float format is the identity there, and a matrix product into the zero accumulator is the plain sum):
  * the first body: `Σ_j x[p, j] · w[j, q]`;
  * the two hidden bodies: `Σ_j (max(a[p, j] · n[p, 0] + b[0, j], 0) · mask[p, j] · 2) · w[j, q]`, the per-row factor a column
    `[5000, 1]`, the bias a row `[1, 128]`, both broadcast over the block;
  * the last body: `a[p, q] · n[p, 0] + b[0, q]`.
-/
import proofs.«171823_j91087666413880_1_alg».proof.Proof.Gen.KernelIdeal.Skeleton
import proofs.«171823_j91087666413880_1_alg».proof.Proof.LibMatmulEntry
import proofs.«171823_j91087666413880_1_alg».proof.Proof.LibBroadcastEntry
import Idealize.ShloMosaic.Lib.ValueLayout
import Idealize.ShloMosaic.Lib.Pipeline.Value

noncomputable section

open scoped BigOperators

namespace Cert.KernelIdeal.Payloads

open Cert.KernelIdeal Cert.KernelIdeal.Gen Idealize.ShloMosaic Idealize.ShloMosaic.ValueIdx

/-- A hidden unit's value inside a block: scaled, biased, clamped at zero, kept by the mask read as a number, doubled. -/
def kept (x0 : FVec Ideal S5000x128 .f32) (x1 : FVec Ideal S5000x1 .f32) (x2 : FVec Ideal S1x128 .f32)
    (x3 : FVec Ideal S5000x128 .f32) (p : Fin 5000) (j : Fin 128) : EReal :=
  max (x0 (ix2 p j) * x1 (ix2 p (0 : Fin 1)) + x2 (ix2 (0 : Fin 1) j)) (Ideal.ofBits .f32 0x00000000#32) * x3 (ix2 p j)
    * Ideal.ofBits .f32 0x40000000#32

theorem pay0_entry (x0 : FVec Ideal S5000x128 .f32) (x1 : FVec Ideal S128x128 .f32) (p : Fin 5000) (q : Fin 128) :
    k0_pay1 (F := Ideal) x0 x1 (ix2 p q) = ∑ j : Fin 128, x0 (ix2 p j) * x1 (ix2 j q) := by
  unfold k0_pay1
  exact (Ideal.matmul_rows_cols dot_S5000x128_S128x128_S5000x128_1_0_0_1_n_n rfl rfl rfl rfl rfl rfl none _ _ p q).trans
    (Finset.sum_congr rfl fun j _ => rfl)

/-- The hidden factor of a hidden body at `(p, j)`. -/
theorem hidden_factor (x0 : FVec Ideal S5000x128 .f32) (x1 : FVec Ideal S5000x1 .f32) (x2 : FVec Ideal S1x128 .f32)
    (x3 : FVec Ideal S5000x128 .f32) (p : Fin 5000) (j : Fin 128) :
    mulf (mulf (maximumf (addf (mulf (shapeCast S5000x128 x0 shapeCasts_S5000x128_S5000x128)
        (broadcastTo S5000x128 (shapeCast S5000x1 x1 shapeCasts_S5000x1_S5000x1) broadcasts_S5000x1_S5000x128))
        (broadcastTo S5000x128 (shapeCast S1x128 x2 shapeCasts_S1x128_S1x128) broadcasts_S1x128_S5000x128))
        (broadcast S5000x128 (Scalar.ofBits (F := Ideal) .f32 0x00000000#32)))
        (shapeCast S5000x128 x3 shapeCasts_S5000x128_S5000x128))
      (broadcast S5000x128 (Scalar.ofBits (F := Ideal) .f32 0x40000000#32)) (ix2 p j) = kept x0 x1 x2 x3 p j := by
  rw [mulf_apply, mulf_apply, maximumf_apply, addf_apply, mulf_apply, broadcast_apply, broadcast_apply,
    shapeCast_self, shapeCast_self, shapeCast_self, shapeCast_self, broadcastTo_a1_ab_apply, broadcastTo_1b_ab_apply]
  rfl

theorem pay1_entry (x0 : FVec Ideal S5000x128 .f32) (x1 : FVec Ideal S5000x1 .f32) (x2 : FVec Ideal S1x128 .f32)
    (x3 : FVec Ideal S5000x128 .f32) (x4 : FVec Ideal S128x128 .f32) (p : Fin 5000) (q : Fin 128) :
    k1_pay1 (F := Ideal) x0 x1 x2 x3 x4 (ix2 p q) = ∑ j : Fin 128, kept x0 x1 x2 x3 p j * x4 (ix2 j q) := by
  unfold k1_pay1
  refine (Ideal.matmul_rows_cols dot_S5000x128_S128x128_S5000x128_1_0_0_1_n_n rfl rfl rfl rfl rfl rfl none _ _ p q).trans ?_
  refine Finset.sum_congr rfl fun j _ => ?_
  exact congrArg (· * x4 (ix2 j q)) (hidden_factor x0 x1 x2 x3 p j)

theorem pay2_entry (x0 : FVec Ideal S5000x128 .f32) (x1 : FVec Ideal S5000x1 .f32) (x2 : FVec Ideal S1x128 .f32)
    (x3 : FVec Ideal S5000x128 .f32) (x4 : FVec Ideal S128x40 .f32) (p : Fin 5000) (q : Fin 40) :
    k2_pay1 (F := Ideal) x0 x1 x2 x3 x4 (ix2 p q) = ∑ j : Fin 128, kept x0 x1 x2 x3 p j * x4 (ix2 j q) := by
  unfold k2_pay1
  refine (Ideal.matmul_rows_cols dot_S5000x128_S128x40_S5000x40_1_0_0_1_n_n rfl rfl rfl rfl rfl rfl none _ _ p q).trans ?_
  refine Finset.sum_congr rfl fun j _ => ?_
  exact congrArg (· * x4 (ix2 j q)) (hidden_factor x0 x1 x2 x3 p j)

theorem pay3_entry (x0 : FVec Ideal S5000x40 .f32) (x1 : FVec Ideal S5000x1 .f32) (x2 : FVec Ideal S1x40 .f32)
    (p : Fin 5000) (q : Fin 40) :
    k3_pay1 (F := Ideal) x0 x1 x2 (ix2 p q) = x0 (ix2 p q) * x1 (ix2 p (0 : Fin 1)) + x2 (ix2 (0 : Fin 1) q) := by
  unfold k3_pay1
  show addf (mulf (shapeCast S5000x40 x0 shapeCasts_S5000x40_S5000x40)
      (broadcastTo S5000x40 (shapeCast S5000x1 x1 shapeCasts_S5000x1_S5000x1) broadcasts_S5000x1_S5000x40))
      (broadcastTo S5000x40 (shapeCast S1x40 x2 shapeCasts_S1x40_S1x40) broadcasts_S1x40_S5000x40) (ix2 p q) = _
  rw [addf_apply, mulf_apply, shapeCast_self, shapeCast_self, shapeCast_self, broadcastTo_a1_ab_apply, broadcastTo_1b_ab_apply]

end Cert.KernelIdeal.Payloads

end
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«171823_j91087666413880_1_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.LibColumnLayout.lean ====
/-
  A vector `[a]` placed as the one column of `[a, 1]`, read at one entry: by a reshape (a shape cast) and by the
  host's `broadcast_in_dim` along `[0]`. Either way entry `(p, u)` is the vector's entry `p`, whatever the unit
  coordinate `u`. Generic extent and element type.
-/
import Idealize.ShloMosaic.Lib.ValueLayout
import Idealize.ShloMosaic.Lib.Pipeline.Value

namespace Idealize.ShloMosaic.ValueIdx

variable {α : Type}

/-- An `[a]` array cast to `[a, 1]` reads, at `(p, u)`, the operand at `p`: the row-major position of `(p, u)` is
    `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's placing of an `[a]` vector as the column of `[a, 1]` (along `[0]`) reads, at `(p, u)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

end Idealize.ShloMosaic.ValueIdx
-- ==== Proof.StageEntries.lean ====
/-
  The stages of the network (Layers.lean) read at ONE ENTRY `(P, q)`, at the ideal values.
  * `normalize`: `a[P, j] · s[P] + b[j]` — the column and row broadcasts read back to the vector's entries;
  * `dropout`: the selection on the mask bit between `max(h, 0)` over the word for one half, and zero;
  * `dense`: the plain sum over the 128 hidden units;
  * a hidden round: `Σ_j hidden(P, j) · w[j, q]` with `hidden(P, j)` the dropped, clamped, scaled and biased entry.
-/
import proofs.«171823_j91087666413880_1_alg».proof.Proof.Layers
import proofs.«171823_j91087666413880_1_alg».proof.Proof.LibDotGeneralEntry
import proofs.«171823_j91087666413880_1_alg».proof.Proof.LibBroadcastEntry
import proofs.«171823_j91087666413880_1_alg».proof.Proof.LibColumnLayout

noncomputable section

open scoped BigOperators

namespace Cert.ReferenceIdeal.Stages

open Cert.ReferenceIdeal Cert.ReferenceIdeal.Gen Idealize.ShloMosaic Idealize.ShloMosaic.ValueIdx

/-- A hidden unit's value after scaling, bias, clamping at zero and dropout. -/
def hidden (a : FVec Ideal S100000x128 .f32) (s : FVec Ideal S100000 .f32) (b : FVec Ideal S128 .f32)
    (k : IVec S100000x128 1) (P : Fin 100000) (j : Fin 128) : EReal :=
  Scalar.select (k (ix2 P j))
    (Ideal.div (max (a (ix2 P j) * s (ix1 P) + b (ix1 j)) (Ideal.ofBits .f32 0x00000000#32)) (Ideal.ofBits .f32 0x3F000000#32))
    (Ideal.ofBits .f32 0x00000000#32)

theorem normalize128_entry (a : FVec Ideal S100000x128 .f32) (s : FVec Ideal S100000 .f32) (b : FVec Ideal S128 .f32)
    (P : Fin 100000) (j : Fin 128) : normalize128 a s b (ix2 P j) = a (ix2 P j) * s (ix1 P) + b (ix1 j) := by
  unfold normalize128
  rw [addf_apply, mulf_apply, broadcastInDim_a1_ab_apply, broadcastInDim_a_a1_apply, broadcastInDim_1b_ab_apply,
    broadcastInDim_b_1b_apply]

theorem normalize40_entry (a : FVec Ideal S100000x40 .f32) (s : FVec Ideal S100000 .f32) (b : FVec Ideal S40 .f32)
    (P : Fin 100000) (j : Fin 40) : normalize40 a s b (ix2 P j) = a (ix2 P j) * s (ix1 P) + b (ix1 j) := by
  unfold normalize40
  rw [addf_apply, mulf_apply, broadcastInDim_a1_ab_apply, broadcastInDim_a_a1_apply, broadcastInDim_1b_ab_apply,
    broadcastInDim_b_1b_apply]

theorem dropout_entry (k : IVec S100000x128 1) (h : FVec Ideal S100000x128 .f32) (P : Fin 100000) (j : Fin 128) :
    dropout k h (ix2 P j) = Scalar.select (k (ix2 P j))
      (Ideal.div (max (h (ix2 P j)) (Ideal.ofBits .f32 0x00000000#32)) (Ideal.ofBits .f32 0x3F000000#32))
      (Ideal.ofBits .f32 0x00000000#32) := by
  unfold dropout
  rw [select_apply]
  simp only [Host.divf, Ideal.hostDivf_def, maximumf_apply, broadcastInDim_scalar_apply, constant_apply, id]
  rfl

theorem dense128_entry (x : FVec Ideal S100000x128 .f32) (w : FVec Ideal S128x128 .f32) (P : Fin 100000) (q : Fin 128) :
    dense128 x w (ix2 P q) = ∑ j : Fin 128, x (ix2 P j) * w (ix2 j q) := by
  unfold dense128
  exact Ideal.dotGeneral_rows_cols dot_S100000x128_S128x128_S100000x128_1_0_0_1_n_n rfl rfl rfl rfl rfl rfl none _ x w P q

theorem dense40_entry (x : FVec Ideal S100000x128 .f32) (w : FVec Ideal S128x40 .f32) (P : Fin 100000) (q : Fin 40) :
    dense40 x w (ix2 P q) = ∑ j : Fin 128, x (ix2 P j) * w (ix2 j q) := by
  unfold dense40
  exact Ideal.dotGeneral_rows_cols dot_S100000x128_S128x40_S100000x40_1_0_0_1_n_n rfl rfl rfl rfl rfl rfl none _ x w P q

theorem round128_entry (a : FVec Ideal S100000x128 .f32) (s : FVec Ideal S100000 .f32) (b : FVec Ideal S128 .f32)
    (k : IVec S100000x128 1) (w : FVec Ideal S128x128 .f32) (P : Fin 100000) (q : Fin 128) :
    round128 a s b k w (ix2 P q) = ∑ j : Fin 128, hidden a s b k P j * w (ix2 j q) := by
  unfold round128
  rw [dense128_entry]
  refine Finset.sum_congr rfl fun j _ => ?_
  rw [dropout_entry, normalize128_entry]
  rfl

theorem round40_entry (a : FVec Ideal S100000x128 .f32) (s : FVec Ideal S100000 .f32) (b : FVec Ideal S128 .f32)
    (k : IVec S100000x128 1) (w : FVec Ideal S128x40 .f32) (P : Fin 100000) (q : Fin 40) :
    round40 a s b k w (ix2 P q) = ∑ j : Fin 128, hidden a s b k P j * w (ix2 j q) := by
  unfold round40
  rw [dense40_entry]
  refine Finset.sum_congr rfl fun j _ => ?_
  rw [dropout_entry, normalize128_entry]
  rfl

end Cert.ReferenceIdeal.Stages

end
-- ==== Proof.Region0.lean ====
/-
  The first launch, read as a whole array: the product of the node features with the first weight. Its grid has 20 points;
  point `t` fetches rows `5000·t … 5000·t + 4999` of the features `[100000, 128]` and the whole weight `[128, 128]` and writes back
  the 5000 × 128 block of their product: entry `(5000·t + p, q)` of the result is `Σ_j x[5000·t + p, j] · w[j, q]`, the
  reference's `dense128` at that entry; the 20 blocks cover every row. Stated at ANY contents `V` of the buffers at entry.
-/
import proofs.«171823_j91087666413880_1_alg».proof.Proof.KernelIdealFrameP
import proofs.«171823_j91087666413880_1_alg».proof.Proof.Payloads
import proofs.«171823_j91087666413880_1_alg».proof.Proof.StageEntries

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.ReferenceIdeal.Stages (dense128 dense128_entry)
open Cert.KernelIdeal.Payloads

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 grid points: the features and the result sit at block `(t, 0)`, the
    weight at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ t.val < 20 :=
  (by decide +kernel : ∀ t : Fin grid0.N, _)

/-- Row `p` of the block of the point numbered `tv` is row `5000·tv + p` of the array. -/
def row (tv : ℕ) (h : tv < 20) (p : Fin 5000) : Fin 100000 := ⟨tv * 5000 + p.val, by have := p.isLt; omega⟩

theorem emb0 (t : Fin cfg0.N) (ht : t.val < 20) (p : Fin 5000) (j : Fin 128) :
    ((cfg0.win 0).blk t).view.emb (ix2 p j) = ix2 (row t.val ht p) j := by
  obtain ⟨e0, e1, -⟩ := idx_facts t
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * j.val = j.val; rw [e1]; omega

theorem emb1 (t : Fin cfg0.N) (j : Fin 128) (q : Fin 128) :
    ((cfg0.win 1).blk t).view.emb (ix2 j q) = ix2 j q := by
  obtain ⟨-, -, e0, e1, -⟩ := idx_facts t
  funext a; apply Fin.ext
  match a with
  | ⟨0, _⟩ => show win0_1.index t (0 : Fin 2) * 128 + 1 * j.val = j.val; rw [e0]; omega
  | ⟨1, _⟩ => show win0_1.index t (1 : Fin 2) * 128 + 1 * q.val = q.val; rw [e1]; omega

theorem emb2 (t : Fin cfg0.N) (ht : t.val < 20) (p : Fin 5000) (q : Fin 128) :
    ((cfg0.win 2).blk t).view.emb (ix2 p q) = ix2 (row t.val ht p) q := by
  obtain ⟨-, -, -, -, e0, e1, -⟩ := idx_facts t
  funext a; apply Fin.ext
  match a with
  | ⟨0, _⟩ => show win0_2.index t (0 : Fin 2) * 5000 + 1 * p.val = t.val * 5000 + p.val; rw [e0]; omega
  | ⟨1, _⟩ => show win0_2.index t (1 : Fin 2) * 128 + 1 * q.val = q.val; rw [e1]; omega

theorem read0 (c : Dev nD) (t : Fin cfg0.N) (ht : t.val < 20) (p : Fin 5000) (j : Fin 128) :
    iblk0 V c 0 t (ix2 p j) = V c main_arg0 (ix2 (row t.val ht p) j) := by
  show V c main_arg0 (((cfg0.win 0).blk t).view.emb (ix2 p j)) = _
  rw [emb0 t ht p j]

theorem read1 (c : Dev nD) (t : Fin cfg0.N) (j : Fin 128) (q : Fin 128) :
    iblk0 V c 1 t (ix2 j q) = V c main_arg5 (ix2 j q) := by
  show V c main_arg5 (((cfg0.win 1).blk t).view.emb (ix2 j q)) = _
  rw [emb1 t j q]

/-- WHAT POINT `t` WRITES BACK is block `t` of the product of the two entry arrays. -/
theorem flushed_eq (c : Dev nD) (t : Fin cfg0.N) :
    (dat0 V c).flushed 2 t = ((cfg0.win 2).blk t).view.read (Elt Ideal) (dense128 (V c main_arg0) (V c main_arg5)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  have ht : t.val < 20 := (idx_facts t).2.2.2.2.2.2
  funext y
  obtain ⟨p, q, rfl⟩ : ∃ (p : Fin 5000) (q : Fin 128), y = ix2 p q := ⟨y 0, y 1, eq_ix2 y⟩
  show k0_pay1 (iblk0 V c 0 t) (iblk0 V c 1 t) (ix2 p q)
    = dense128 (V c main_arg0) (V c main_arg5) (((cfg0.win 2).blk t).view.emb (ix2 p q))
  refine (pay0_entry (iblk0 V c 0 t) (iblk0 V c 1 t) p q).trans ?_
  rw [emb2 t ht p q]
  refine Eq.trans ?_ (dense128_entry (V c main_arg0) (V c main_arg5) (row t.val ht p) q).symm
  refine Finset.sum_congr rfl fun j _ => ?_
  rw [read0 V c t ht p j, read1 V c t j q]

theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v16).slice (win0_2.rect t)).set ↔ _
  rw [View.set_slice_whole, Rect.mem_set_unit]
  exact Iff.rfl

/-- Row `r` lies in the block of the point `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 5000 < 20 := by omega
  obtain ⟨-, -, -, -, e0, e1, -⟩ := idx_facts (⟨(i 0).val / 5000, hlt⟩ : Fin cfg0.N)
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    rw [e1]
    omega

/-- THE RESULT ARRAY after the launch is the product of the arrays the launch found. -/
theorem array_eq (c : Dev nD) : (dat0 V c).arrAt 2 cfg0.N = dense128 (V c main_arg0) (V c main_arg5) :=
  (dat0 V c).arrAt_eq_of_cover 2 _ (fun t _ => flushed_eq V c t) cover

end Cert.KernelIdeal.Region0

end
-- ==== Proof.DropLaw.lean ====
/-
  The one law that joins the two spellings of inverted dropout, on the extended reals.
  The kernel keeps a clamped value `x = max(s, 0)` by multiplying it with the mask bit read as a number (0 or 1) and then
  with the word `0x40000000`, which is the real 2; the reference selects, on the same bit, between `x` divided by the word
  `0x3F000000`, which is the real 1/2, and zero. With the bit set both are `x · 2` — dividing an extended real by a nonzero
  real is multiplying by its reciprocal —; with the bit clear both are `0`, since `x · 0 = 0` for every extended real, the
  infinite ones included. No finiteness is needed.
-/
import Idealize.ShloMosaic.PureOps.Ideal
import Idealize.ShloMosaic.PureOps.Ideal.Laws
import Idealize.ShloMosaic.Lib.ValueIdx

noncomputable section

namespace Cert.DropLaw

open Idealize.ShloMosaic

/-- The word `0x40000000` denotes the real 2. -/
theorem ofBits_two : Ideal.ofBits .f32 0x40000000#32 = ((2 : ℝ) : EReal) := by
  simp [Ideal.ofBits, Ideal.ieee, -EReal.coe_mul]; norm_num

/-- The word `0x3F000000` denotes the real 1/2. -/
theorem ofBits_half : Ideal.ofBits .f32 0x3F000000#32 = ((1 / 2 : ℝ) : EReal) := by
  simp [Ideal.ofBits, Ideal.ieee, -EReal.coe_mul]; norm_num

/-- A set bit reads as the number 1, a clear bit as 0. -/
theorem uitofp_one : FloatOps.uitofp (F := Ideal) .f32 (1#1 : BitVec 1) = 1 := by
  show (((1#1 : BitVec 1).toNat : ℝ) : EReal) = 1
  simp
theorem uitofp_zero : FloatOps.uitofp (F := Ideal) .f32 (0#1 : BitVec 1) = 0 := by
  show (((0#1 : BitVec 1).toNat : ℝ) : EReal) = 0
  simp

/-- Keeping by the bit and doubling is selecting, on the bit, the value over one half or zero. -/
theorem keep_double (x : EReal) (k : BitVec 1) :
    x * FloatOps.uitofp (F := Ideal) .f32 k * Ideal.ofBits .f32 0x40000000#32
      = Scalar.select k (Ideal.div x (Ideal.ofBits .f32 0x3F000000#32)) (Ideal.ofBits .f32 0x00000000#32) := by
  rw [ofBits_two, ofBits_half, Ideal.ofBits_zero_f32, Ideal.div_coe (by norm_num : (1 / 2 : ℝ) ≠ 0)]
  by_cases hk : k = 1#1
  · subst hk
    rw [ValueIdx.select_one, uitofp_one, mul_one]
    norm_num
  · have h0 := ValueIdx.eq_zero_of_ne_one hk
    subst h0
    rw [ValueIdx.select_zero, uitofp_zero, mul_zero, zero_mul]

end Cert.DropLaw

end
-- ==== Proof.Region1.lean ====
/-
  The second launch (the first hidden round), read as a whole array. Its grid has 20 points; point `t` works on the
  5000 rows `5000·t … 5000·t + 4999`: it fetches those rows of the aggregated features `[100000, 128]`, of the per-row factor
  `[100000, 1]` and of the mask read as numbers `[100000, 128]`, the whole bias row `[1, 128]` and the whole weight
  `[128, 128]`, and writes back the 5000 × 128 block of the product. So entry `(5000·t + p, q)` of the result is
  `Σ_j (max(a[P, j] · n[P] + b[j], 0) · mask[P, j] · 2) · w[j, q]` with `P = 5000·t + p`, which — by the law that joins the two
  spellings of dropout — is the reference-shaped round `round128` at that entry; and the 20 blocks cover every row.
  Stated at ANY contents `V` of the buffers when the launch is entered, given what the factor, bias and mask buffers hold.
-/
import proofs.«171823_j91087666413880_1_alg».proof.Proof.KernelIdealFrameP
import proofs.«171823_j91087666413880_1_alg».proof.Proof.Payloads
import proofs.«171823_j91087666413880_1_alg».proof.Proof.StageEntries
import proofs.«171823_j91087666413880_1_alg».proof.Proof.DropLaw

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.ReferenceIdeal.Stages (round128 round128_entry)
open Cert.KernelIdeal.Payloads

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 grid points: the row-blocked windows sit at block `(t, 0)`, the bias and
    the weight at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ t.val < 20 :=
  (by decide +kernel : ∀ t : Fin grid1.N, _)

/-- Row `p` of the block of the point numbered `tv` is row `5000·tv + p` of the array. -/
def row (tv : ℕ) (h : tv < 20) (p : Fin 5000) : Fin 100000 := ⟨tv * 5000 + p.val, by have := p.isLt; omega⟩

/-! ## Where each window's block sits in its array -/

theorem emb0 (t : Fin cfg1.N) (ht : t.val < 20) (p : Fin 5000) (j : Fin 128) :
    ((cfg1.win 0).blk t).view.emb (ix2 p j) = ix2 (row t.val ht p) j := by
  obtain ⟨e0, e1, -⟩ := idx_facts t
  funext a; apply Fin.ext
  match a with
  | ⟨0, _⟩ => show win1_0.index t (0 : Fin 2) * 5000 + 1 * p.val = t.val * 5000 + p.val; rw [e0]; omega
  | ⟨1, _⟩ => show win1_0.index t (1 : Fin 2) * 128 + 1 * j.val = j.val; rw [e1]; omega

theorem emb1 (t : Fin cfg1.N) (ht : t.val < 20) (p : Fin 5000) (u : Fin 1) :
    ((cfg1.win 1).blk t).view.emb (ix2 p u) = ix2 (row t.val ht p) u := by
  obtain ⟨-, -, e0, e1, -⟩ := idx_facts t
  funext a; apply Fin.ext
  match a with
  | ⟨0, _⟩ => show win1_1.index t (0 : Fin 2) * 5000 + 1 * p.val = t.val * 5000 + p.val; rw [e0]; omega
  | ⟨1, _⟩ => show win1_1.index t (1 : Fin 2) * 1 + 1 * u.val = u.val; rw [e1]; omega

theorem emb2 (t : Fin cfg1.N) (u : Fin 1) (j : Fin 128) :
    ((cfg1.win 2).blk t).view.emb (ix2 u j) = ix2 u j := by
  obtain ⟨-, -, -, -, e0, e1, -⟩ := idx_facts t
  funext a; apply Fin.ext
  match a with
  | ⟨0, _⟩ => show win1_2.index t (0 : Fin 2) * 1 + 1 * u.val = u.val; rw [e0]; omega
  | ⟨1, _⟩ => show win1_2.index t (1 : Fin 2) * 128 + 1 * j.val = j.val; rw [e1]; omega

theorem emb3 (t : Fin cfg1.N) (ht : t.val < 20) (p : Fin 5000) (j : Fin 128) :
    ((cfg1.win 3).blk t).view.emb (ix2 p j) = ix2 (row t.val ht p) j := by
  obtain ⟨-, -, -, -, -, -, e0, e1, -⟩ := idx_facts t
  funext a; apply Fin.ext
  match a with
  | ⟨0, _⟩ => show win1_3.index t (0 : Fin 2) * 5000 + 1 * p.val = t.val * 5000 + p.val; rw [e0]; omega
  | ⟨1, _⟩ => show win1_3.index t (1 : Fin 2) * 128 + 1 * j.val = j.val; rw [e1]; omega

theorem emb4 (t : Fin cfg1.N) (j : Fin 128) (q : Fin 128) :
    ((cfg1.win 4).blk t).view.emb (ix2 j q) = ix2 j q := by
  obtain ⟨-, -, -, -, -, -, -, -, e0, e1, -⟩ := idx_facts t
  funext a; apply Fin.ext
  match a with
  | ⟨0, _⟩ => show win1_4.index t (0 : Fin 2) * 128 + 1 * j.val = j.val; rw [e0]; omega
  | ⟨1, _⟩ => show win1_4.index t (1 : Fin 2) * 128 + 1 * q.val = q.val; rw [e1]; omega

theorem emb5 (t : Fin cfg1.N) (ht : t.val < 20) (p : Fin 5000) (q : Fin 128) :
    ((cfg1.win 5).blk t).view.emb (ix2 p q) = ix2 (row t.val ht p) q := by
  obtain ⟨-, -, -, -, -, -, -, -, -, -, e0, e1, -⟩ := idx_facts t
  funext a; apply Fin.ext
  match a with
  | ⟨0, _⟩ => show win1_5.index t (0 : Fin 2) * 5000 + 1 * p.val = t.val * 5000 + p.val; rw [e0]; omega
  | ⟨1, _⟩ => show win1_5.index t (1 : Fin 2) * 128 + 1 * q.val = q.val; rw [e1]; omega

/-! ## The blocks the body loads, read off the entry arrays -/

theorem read0 (c : Dev nD) (t : Fin cfg1.N) (ht : t.val < 20) (p : Fin 5000) (j : Fin 128) :
    iblk1 V c 0 t (ix2 p j) = V c main_v26 (ix2 (row t.val ht p) j) := by
  show V c main_v26 (((cfg1.win 0).blk t).view.emb (ix2 p j)) = _
  rw [emb0 t ht p j]

theorem read1 (c : Dev nD) (t : Fin cfg1.N) (ht : t.val < 20) (p : Fin 5000) (u : Fin 1) :
    iblk1 V c 1 t (ix2 p u) = V c main_v10 (ix2 (row t.val ht p) u) := by
  show V c main_v10 (((cfg1.win 1).blk t).view.emb (ix2 p u)) = _
  rw [emb1 t ht p u]

theorem read2 (c : Dev nD) (t : Fin cfg1.N) (u : Fin 1) (j : Fin 128) :
    iblk1 V c 2 t (ix2 u j) = V c main_v13 (ix2 u j) := by
  show V c main_v13 (((cfg1.win 2).blk t).view.emb (ix2 u j)) = _
  rw [emb2 t u j]

theorem read3 (c : Dev nD) (t : Fin cfg1.N) (ht : t.val < 20) (p : Fin 5000) (j : Fin 128) :
    iblk1 V c 3 t (ix2 p j) = V c main_v11 (ix2 (row t.val ht p) j) := by
  show V c main_v11 (((cfg1.win 3).blk t).view.emb (ix2 p j)) = _
  rw [emb3 t ht p j]

theorem read4 (c : Dev nD) (t : Fin cfg1.N) (j : Fin 128) (q : Fin 128) :
    iblk1 V c 4 t (ix2 j q) = V c main_arg7 (ix2 j q) := by
  show V c main_arg7 (((cfg1.win 4).blk t).view.emb (ix2 j q)) = _
  rw [emb4 t j q]

/-! ## What a point writes back -/

/-- WHAT POINT `t` WRITES BACK is block `t` of the reference-shaped round of the entry arrays, given that the factor buffer
    holds the per-node factor as a column, the bias buffer the bias as a row and the mask buffer the mask bits as numbers. -/
theorem flushed_eq (c : Dev nD) (s : FVec Ideal Cert.ReferenceIdeal.S100000 .f32) (b : FVec Ideal Cert.ReferenceIdeal.S128 .f32)
    (k : IVec Cert.ReferenceIdeal.S100000x128 1)
    (hn : ∀ (P : Fin 100000) (u : Fin 1), V c main_v10 (ix2 P u) = s (ix1 P))
    (hb : ∀ (u : Fin 1) (j : Fin 128), V c main_v13 (ix2 u j) = b (ix1 j))
    (hk : ∀ (P : Fin 100000) (j : Fin 128), V c main_v11 (ix2 P j) = FloatOps.uitofp (F := Ideal) .f32 (k (ix2 P j)))
    (t : Fin cfg1.N) :
    (dat1 V c).flushed 5 t = ((cfg1.win 5).blk t).view.read (Elt Ideal) (round128 (V c main_v26) s b k (V c main_arg7)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S1x128) hz,
    View.ld_unit_zero (S := S128x128) hz]
  have ht : t.val < 20 := (idx_facts t).2.2.2.2.2.2.2.2.2.2.2.2
  funext y
  obtain ⟨p, q, rfl⟩ : ∃ (p : Fin 5000) (q : Fin 128), y = ix2 p q := ⟨y 0, y 1, eq_ix2 y⟩
  show k1_pay1 (iblk1 V c 0 t) (iblk1 V c 1 t) (iblk1 V c 2 t) (iblk1 V c 3 t) (iblk1 V c 4 t) (ix2 p q)
    = round128 (V c main_v26) s b k (V c main_arg7) (((cfg1.win 5).blk t).view.emb (ix2 p q))
  refine (pay1_entry (iblk1 V c 0 t) (iblk1 V c 1 t) (iblk1 V c 2 t) (iblk1 V c 3 t) (iblk1 V c 4 t) p q).trans ?_
  rw [emb5 t ht p q]
  refine Eq.trans ?_ (round128_entry (V c main_v26) s b k (V c main_arg7) (row t.val ht p) q).symm
  refine Finset.sum_congr rfl fun j _ => ?_
  unfold kept Cert.ReferenceIdeal.Stages.hidden
  rw [read0 V c t ht p j, read1 V c t ht p 0, read2 V c t 0 j, read3 V c t ht p j, read4 V c t j q, hn, hb, hk]
  exact congrArg (· * V c main_arg7 (ix2 j q)) (Cert.DropLaw.keep_double _ _)

/-! ## The blocks cover the array -/

theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v27).slice (win1_5.rect t)).set ↔ _
  rw [View.set_slice_whole, Rect.mem_set_unit]
  exact Iff.rfl

/-- Row `r` lies in the block of the point `r / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hlt : (i 0).val / 5000 < 20 := by omega
  obtain ⟨-, -, -, -, -, -, -, -, -, -, e0, e1, -⟩ := idx_facts (⟨(i 0).val / 5000, hlt⟩ : Fin cfg1.N)
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    rw [e1]
    omega

/-! ## The array after the launch -/

/-- THE RESULT ARRAY after the launch is the reference-shaped round of the arrays the launch found. -/
theorem array_eq (c : Dev nD) (s : FVec Ideal Cert.ReferenceIdeal.S100000 .f32) (b : FVec Ideal Cert.ReferenceIdeal.S128 .f32)
    (k : IVec Cert.ReferenceIdeal.S100000x128 1)
    (hn : ∀ (P : Fin 100000) (u : Fin 1), V c main_v10 (ix2 P u) = s (ix1 P))
    (hb : ∀ (u : Fin 1) (j : Fin 128), V c main_v13 (ix2 u j) = b (ix1 j))
    (hk : ∀ (P : Fin 100000) (j : Fin 128), V c main_v11 (ix2 P j) = FloatOps.uitofp (F := Ideal) .f32 (k (ix2 P j))) :
    (dat1 V c).arrAt 5 cfg1.N = round128 (V c main_v26) s b k (V c main_arg7) :=
  (dat1 V c).arrAt_eq_of_cover 5 _ (fun t _ => flushed_eq V c s b k hn hb hk t) cover

end Cert.KernelIdeal.Region1

end
-- ==== Proof.Region2.lean ====
/-
  The third launch (the second hidden round), read as a whole array. As in the second launch, point `t` of its 20 works
  on rows `5000·t … 5000·t + 4999`: those rows of the second aggregation `[100000, 128]`, of the factor column `[100000, 1]` and of
  the second mask read as numbers, the whole bias row `[1, 128]` and the whole weight `[128, 40]`; it writes back the 5000 × 40
  block of the product. Entry `(5000·t + p, q)` of the result is `Σ_j (max(a[P, j] · n[P] + b[j], 0) · mask[P, j] · 2) · w[j, q]`,
  the reference-shaped round `round40` at that entry by the dropout law; the 20 blocks cover every row.
  Stated at ANY contents `V` of the buffers at entry, given what the factor, bias and mask buffers hold.
-/
import proofs.«171823_j91087666413880_1_alg».proof.Proof.KernelIdealFrameP
import proofs.«171823_j91087666413880_1_alg».proof.Proof.Payloads
import proofs.«171823_j91087666413880_1_alg».proof.Proof.StageEntries
import proofs.«171823_j91087666413880_1_alg».proof.Proof.DropLaw

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.ReferenceIdeal.Stages (round40 round40_entry)
open Cert.KernelIdeal.Payloads

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 grid points: the row-blocked windows sit at block `(t, 0)`, the bias and
    the weight at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ t.val < 20 :=
  (by decide +kernel : ∀ t : Fin grid2.N, _)

/-- Row `p` of the block of the point numbered `tv` is row `5000·tv + p` of the array. -/
def row (tv : ℕ) (h : tv < 20) (p : Fin 5000) : Fin 100000 := ⟨tv * 5000 + p.val, by have := p.isLt; omega⟩

/-! ## Where each window's block sits in its array -/

theorem emb0 (t : Fin cfg2.N) (ht : t.val < 20) (p : Fin 5000) (j : Fin 128) :
    ((cfg2.win 0).blk t).view.emb (ix2 p j) = ix2 (row t.val ht p) j := by
  obtain ⟨e0, e1, -⟩ := idx_facts t
  funext a; apply Fin.ext
  match a with
  | ⟨0, _⟩ => show win2_0.index t (0 : Fin 2) * 5000 + 1 * p.val = t.val * 5000 + p.val; rw [e0]; omega
  | ⟨1, _⟩ => show win2_0.index t (1 : Fin 2) * 128 + 1 * j.val = j.val; rw [e1]; omega

theorem emb1 (t : Fin cfg2.N) (ht : t.val < 20) (p : Fin 5000) (u : Fin 1) :
    ((cfg2.win 1).blk t).view.emb (ix2 p u) = ix2 (row t.val ht p) u := by
  obtain ⟨-, -, e0, e1, -⟩ := idx_facts t
  funext a; apply Fin.ext
  match a with
  | ⟨0, _⟩ => show win2_1.index t (0 : Fin 2) * 5000 + 1 * p.val = t.val * 5000 + p.val; rw [e0]; omega
  | ⟨1, _⟩ => show win2_1.index t (1 : Fin 2) * 1 + 1 * u.val = u.val; rw [e1]; omega

theorem emb2 (t : Fin cfg2.N) (u : Fin 1) (j : Fin 128) :
    ((cfg2.win 2).blk t).view.emb (ix2 u j) = ix2 u j := by
  obtain ⟨-, -, -, -, e0, e1, -⟩ := idx_facts t
  funext a; apply Fin.ext
  match a with
  | ⟨0, _⟩ => show win2_2.index t (0 : Fin 2) * 1 + 1 * u.val = u.val; rw [e0]; omega
  | ⟨1, _⟩ => show win2_2.index t (1 : Fin 2) * 128 + 1 * j.val = j.val; rw [e1]; omega

theorem emb3 (t : Fin cfg2.N) (ht : t.val < 20) (p : Fin 5000) (j : Fin 128) :
    ((cfg2.win 3).blk t).view.emb (ix2 p j) = ix2 (row t.val ht p) j := by
  obtain ⟨-, -, -, -, -, -, e0, e1, -⟩ := idx_facts t
  funext a; apply Fin.ext
  match a with
  | ⟨0, _⟩ => show win2_3.index t (0 : Fin 2) * 5000 + 1 * p.val = t.val * 5000 + p.val; rw [e0]; omega
  | ⟨1, _⟩ => show win2_3.index t (1 : Fin 2) * 128 + 1 * j.val = j.val; rw [e1]; omega

theorem emb4 (t : Fin cfg2.N) (j : Fin 128) (q : Fin 40) :
    ((cfg2.win 4).blk t).view.emb (ix2 j q) = ix2 j q := by
  obtain ⟨-, -, -, -, -, -, -, -, e0, e1, -⟩ := idx_facts t
  funext a; apply Fin.ext
  match a with
  | ⟨0, _⟩ => show win2_4.index t (0 : Fin 2) * 128 + 1 * j.val = j.val; rw [e0]; omega
  | ⟨1, _⟩ => show win2_4.index t (1 : Fin 2) * 40 + 1 * q.val = q.val; rw [e1]; omega

theorem emb5 (t : Fin cfg2.N) (ht : t.val < 20) (p : Fin 5000) (q : Fin 40) :
    ((cfg2.win 5).blk t).view.emb (ix2 p q) = ix2 (row t.val ht p) q := by
  obtain ⟨-, -, -, -, -, -, -, -, -, -, e0, e1, -⟩ := idx_facts t
  funext a; apply Fin.ext
  match a with
  | ⟨0, _⟩ => show win2_5.index t (0 : Fin 2) * 5000 + 1 * p.val = t.val * 5000 + p.val; rw [e0]; omega
  | ⟨1, _⟩ => show win2_5.index t (1 : Fin 2) * 40 + 1 * q.val = q.val; rw [e1]; omega

/-! ## The blocks the body loads, read off the entry arrays -/

theorem read0 (c : Dev nD) (t : Fin cfg2.N) (ht : t.val < 20) (p : Fin 5000) (j : Fin 128) :
    iblk2 V c 0 t (ix2 p j) = V c main_v37 (ix2 (row t.val ht p) j) := by
  show V c main_v37 (((cfg2.win 0).blk t).view.emb (ix2 p j)) = _
  rw [emb0 t ht p j]

theorem read1 (c : Dev nD) (t : Fin cfg2.N) (ht : t.val < 20) (p : Fin 5000) (u : Fin 1) :
    iblk2 V c 1 t (ix2 p u) = V c main_v10 (ix2 (row t.val ht p) u) := by
  show V c main_v10 (((cfg2.win 1).blk t).view.emb (ix2 p u)) = _
  rw [emb1 t ht p u]

theorem read2 (c : Dev nD) (t : Fin cfg2.N) (u : Fin 1) (j : Fin 128) :
    iblk2 V c 2 t (ix2 u j) = V c main_v14 (ix2 u j) := by
  show V c main_v14 (((cfg2.win 2).blk t).view.emb (ix2 u j)) = _
  rw [emb2 t u j]

theorem read3 (c : Dev nD) (t : Fin cfg2.N) (ht : t.val < 20) (p : Fin 5000) (j : Fin 128) :
    iblk2 V c 3 t (ix2 p j) = V c main_v12 (ix2 (row t.val ht p) j) := by
  show V c main_v12 (((cfg2.win 3).blk t).view.emb (ix2 p j)) = _
  rw [emb3 t ht p j]

theorem read4 (c : Dev nD) (t : Fin cfg2.N) (j : Fin 128) (q : Fin 40) :
    iblk2 V c 4 t (ix2 j q) = V c main_arg9 (ix2 j q) := by
  show V c main_arg9 (((cfg2.win 4).blk t).view.emb (ix2 j q)) = _
  rw [emb4 t j q]

/-! ## What a point writes back -/

/-- WHAT POINT `t` WRITES BACK is block `t` of the reference-shaped round of the entry arrays, given that the factor buffer
    holds the per-node factor as a column, the bias buffer the bias as a row and the mask buffer the mask bits as numbers. -/
theorem flushed_eq (c : Dev nD) (s : FVec Ideal Cert.ReferenceIdeal.S100000 .f32) (b : FVec Ideal Cert.ReferenceIdeal.S128 .f32)
    (k : IVec Cert.ReferenceIdeal.S100000x128 1)
    (hn : ∀ (P : Fin 100000) (u : Fin 1), V c main_v10 (ix2 P u) = s (ix1 P))
    (hb : ∀ (u : Fin 1) (j : Fin 128), V c main_v14 (ix2 u j) = b (ix1 j))
    (hk : ∀ (P : Fin 100000) (j : Fin 128), V c main_v12 (ix2 P j) = FloatOps.uitofp (F := Ideal) .f32 (k (ix2 P j)))
    (t : Fin cfg2.N) :
    (dat2 V c).flushed 5 t = ((cfg2.win 5).blk t).view.read (Elt Ideal) (round40 (V c main_v37) s b k (V c main_arg9)) := by
  show (cfg2.win 5).cut (grid2.coords t) ((dat2 V c).after 5 t) = _
  rw [after2_5]
  unfold out2_5
  rw [View.canon_unit_zero hz]
  simp only [View.ld_unit_zero (S := S5000x128) hz, View.ld_unit_zero (S := S5000x1) hz, View.ld_unit_zero (S := S1x128) hz,
    View.ld_unit_zero (S := S128x40) hz]
  have ht : t.val < 20 := (idx_facts t).2.2.2.2.2.2.2.2.2.2.2.2
  funext y
  obtain ⟨p, q, rfl⟩ : ∃ (p : Fin 5000) (q : Fin 40), y = ix2 p q := ⟨y 0, y 1, eq_ix2 y⟩
  show k2_pay1 (iblk2 V c 0 t) (iblk2 V c 1 t) (iblk2 V c 2 t) (iblk2 V c 3 t) (iblk2 V c 4 t) (ix2 p q)
    = round40 (V c main_v37) s b k (V c main_arg9) (((cfg2.win 5).blk t).view.emb (ix2 p q))
  refine (pay2_entry (iblk2 V c 0 t) (iblk2 V c 1 t) (iblk2 V c 2 t) (iblk2 V c 3 t) (iblk2 V c 4 t) p q).trans ?_
  rw [emb5 t ht p q]
  refine Eq.trans ?_ (round40_entry (V c main_v37) s b k (V c main_arg9) (row t.val ht p) q).symm
  refine Finset.sum_congr rfl fun j _ => ?_
  unfold kept Cert.ReferenceIdeal.Stages.hidden
  rw [read0 V c t ht p j, read1 V c t ht p 0, read2 V c t 0 j, read3 V c t ht p j, read4 V c t j q, hn, hb, hk]
  exact congrArg (· * V c main_arg9 (ix2 j q)) (Cert.DropLaw.keep_double _ _)

/-! ## The blocks cover the array -/

theorem mem_blk (t : Fin cfg2.N) (i : S100000x40.Idx) :
    i ∈ ((cfg2.win 5).blk t).view.set ↔ ∀ a : Fin 2, win2_5.index t a * S5000x40.size a ≤ (i a).val ∧ (i a).val < win2_5.index t a * S5000x40.size a + S5000x40.size a := by
  show i ∈ ((View.whole main_v38).slice (win2_5.rect t)).set ↔ _
  rw [View.set_slice_whole, Rect.mem_set_unit]
  exact Iff.rfl

/-- Row `r` lies in the block of the point `r / 5000`. -/
theorem cover (i : S100000x40.Idx) : ∃ t : Fin cfg2.N, (cfg2.win 5).flush t = true ∧ i ∈ ((cfg2.win 5).blk t).view.set := by
  have hi0 : (i 0).val < 100000 := (i 0).isLt
  have hi1 : (i 1).val < 40 := (i 1).isLt
  have hlt : (i 0).val / 5000 < 20 := by omega
  obtain ⟨-, -, -, -, -, -, -, -, -, -, e0, e1, -⟩ := idx_facts (⟨(i 0).val / 5000, hlt⟩ : Fin cfg2.N)
  refine ⟨⟨(i 0).val / 5000, hlt⟩, flush2_5 _, ?_⟩
  rw [mem_blk]
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win2_5.index ⟨(i 0).val / 5000, hlt⟩ (1 : Fin 2) * 40 ≤ (i 1).val ∧ (i 1).val < win2_5.index ⟨(i 0).val / 5000, hlt⟩ (1 : Fin 2) * 40 + 40
    rw [e1]
    omega

/-! ## The array after the launch -/

/-- THE RESULT ARRAY after the launch is the reference-shaped round of the arrays the launch found. -/
theorem array_eq (c : Dev nD) (s : FVec Ideal Cert.ReferenceIdeal.S100000 .f32) (b : FVec Ideal Cert.ReferenceIdeal.S128 .f32)
    (k : IVec Cert.ReferenceIdeal.S100000x128 1)
    (hn : ∀ (P : Fin 100000) (u : Fin 1), V c main_v10 (ix2 P u) = s (ix1 P))
    (hb : ∀ (u : Fin 1) (j : Fin 128), V c main_v14 (ix2 u j) = b (ix1 j))
    (hk : ∀ (P : Fin 100000) (j : Fin 128), V c main_v12 (ix2 P j) = FloatOps.uitofp (F := Ideal) .f32 (k (ix2 P j))) :
    (dat2 V c).arrAt 5 cfg2.N = round40 (V c main_v37) s b k (V c main_arg9) :=
  (dat2 V c).arrAt_eq_of_cover 5 _ (fun t _ => flushed_eq V c s b k hn hb hk t) cover

end Cert.KernelIdeal.Region2

end
-- ==== Proof.Region3.lean ====
/-
  The last launch, read as a whole array: the third aggregation `[100000, 40]` scaled row by row and biased column by
  column. Its grid has 20 points; point `t` fetches rows `5000·t … 5000·t + 4999` of the aggregation and of the factor column
  `[100000, 1]` and the whole bias row `[1, 40]`, and writes back `a[P, q] · n[P] + b[q]` for its 5000 rows: the reference's
  `normalize40` at that entry; the 20 blocks cover every row. Stated at ANY contents `V` of the buffers at entry, given
  what the factor and bias buffers hold.
-/
import proofs.«171823_j91087666413880_1_alg».proof.Proof.KernelIdealFrameP
import proofs.«171823_j91087666413880_1_alg».proof.Proof.Payloads
import proofs.«171823_j91087666413880_1_alg».proof.Proof.StageEntries

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.ReferenceIdeal.Stages (normalize40 normalize40_entry)
open Cert.KernelIdeal.Payloads

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 grid points: the row-blocked windows sit at block `(t, 0)`, the bias at
    block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ t.val < 20 :=
  (by decide +kernel : ∀ t : Fin grid3.N, _)

/-- Row `p` of the block of the point numbered `tv` is row `5000·tv + p` of the array. -/
def row (tv : ℕ) (h : tv < 20) (p : Fin 5000) : Fin 100000 := ⟨tv * 5000 + p.val, by have := p.isLt; omega⟩

theorem emb0 (t : Fin cfg3.N) (ht : t.val < 20) (p : Fin 5000) (q : Fin 40) :
    ((cfg3.win 0).blk t).view.emb (ix2 p q) = ix2 (row t.val ht p) q := by
  obtain ⟨e0, e1, -⟩ := idx_facts t
  funext a; apply Fin.ext
  match a with
  | ⟨0, _⟩ => show win3_0.index t (0 : Fin 2) * 5000 + 1 * p.val = t.val * 5000 + p.val; rw [e0]; omega
  | ⟨1, _⟩ => show win3_0.index t (1 : Fin 2) * 40 + 1 * q.val = q.val; rw [e1]; omega

theorem emb1 (t : Fin cfg3.N) (ht : t.val < 20) (p : Fin 5000) (u : Fin 1) :
    ((cfg3.win 1).blk t).view.emb (ix2 p u) = ix2 (row t.val ht p) u := by
  obtain ⟨-, -, e0, e1, -⟩ := idx_facts t
  funext a; apply Fin.ext
  match a with
  | ⟨0, _⟩ => show win3_1.index t (0 : Fin 2) * 5000 + 1 * p.val = t.val * 5000 + p.val; rw [e0]; omega
  | ⟨1, _⟩ => show win3_1.index t (1 : Fin 2) * 1 + 1 * u.val = u.val; rw [e1]; omega

theorem emb2 (t : Fin cfg3.N) (u : Fin 1) (q : Fin 40) :
    ((cfg3.win 2).blk t).view.emb (ix2 u q) = ix2 u q := by
  obtain ⟨-, -, -, -, e0, e1, -⟩ := idx_facts t
  funext a; apply Fin.ext
  match a with
  | ⟨0, _⟩ => show win3_2.index t (0 : Fin 2) * 1 + 1 * u.val = u.val; rw [e0]; omega
  | ⟨1, _⟩ => show win3_2.index t (1 : Fin 2) * 40 + 1 * q.val = q.val; rw [e1]; omega

theorem emb3 (t : Fin cfg3.N) (ht : t.val < 20) (p : Fin 5000) (q : Fin 40) :
    ((cfg3.win 3).blk t).view.emb (ix2 p q) = ix2 (row t.val ht p) q := by
  obtain ⟨-, -, -, -, -, -, e0, e1, -⟩ := idx_facts t
  funext a; apply Fin.ext
  match a with
  | ⟨0, _⟩ => show win3_3.index t (0 : Fin 2) * 5000 + 1 * p.val = t.val * 5000 + p.val; rw [e0]; omega
  | ⟨1, _⟩ => show win3_3.index t (1 : Fin 2) * 40 + 1 * q.val = q.val; rw [e1]; omega

theorem read0 (c : Dev nD) (t : Fin cfg3.N) (ht : t.val < 20) (p : Fin 5000) (q : Fin 40) :
    iblk3 V c 0 t (ix2 p q) = V c main_v48 (ix2 (row t.val ht p) q) := by
  show V c main_v48 (((cfg3.win 0).blk t).view.emb (ix2 p q)) = _
  rw [emb0 t ht p q]

theorem read1 (c : Dev nD) (t : Fin cfg3.N) (ht : t.val < 20) (p : Fin 5000) (u : Fin 1) :
    iblk3 V c 1 t (ix2 p u) = V c main_v10 (ix2 (row t.val ht p) u) := by
  show V c main_v10 (((cfg3.win 1).blk t).view.emb (ix2 p u)) = _
  rw [emb1 t ht p u]

theorem read2 (c : Dev nD) (t : Fin cfg3.N) (u : Fin 1) (q : Fin 40) :
    iblk3 V c 2 t (ix2 u q) = V c main_v15 (ix2 u q) := by
  show V c main_v15 (((cfg3.win 2).blk t).view.emb (ix2 u q)) = _
  rw [emb2 t u q]

/-- WHAT POINT `t` WRITES BACK is block `t` of the scaled and biased entry array, given that the factor buffer holds the
    per-node factor as a column and the bias buffer the bias as a row. -/
theorem flushed_eq (c : Dev nD) (s : FVec Ideal Cert.ReferenceIdeal.S100000 .f32) (b : FVec Ideal Cert.ReferenceIdeal.S40 .f32)
    (hn : ∀ (P : Fin 100000) (u : Fin 1), V c main_v10 (ix2 P u) = s (ix1 P))
    (hb : ∀ (u : Fin 1) (q : Fin 40), V c main_v15 (ix2 u q) = b (ix1 q))
    (t : Fin cfg3.N) :
    (dat3 V c).flushed 3 t = ((cfg3.win 3).blk t).view.read (Elt Ideal) (normalize40 (V c main_v48) s b) := by
  show (cfg3.win 3).cut (grid3.coords t) ((dat3 V c).after 3 t) = _
  rw [after3_3]
  unfold out3_3
  rw [View.canon_unit_zero hz]
  simp only [View.ld_unit_zero (S := S5000x40) hz, View.ld_unit_zero (S := S5000x1) hz, View.ld_unit_zero (S := S1x40) hz]
  have ht : t.val < 20 := (idx_facts t).2.2.2.2.2.2.2.2
  funext y
  obtain ⟨p, q, rfl⟩ : ∃ (p : Fin 5000) (q : Fin 40), y = ix2 p q := ⟨y 0, y 1, eq_ix2 y⟩
  show k3_pay1 (iblk3 V c 0 t) (iblk3 V c 1 t) (iblk3 V c 2 t) (ix2 p q)
    = normalize40 (V c main_v48) s b (((cfg3.win 3).blk t).view.emb (ix2 p q))
  refine (pay3_entry (iblk3 V c 0 t) (iblk3 V c 1 t) (iblk3 V c 2 t) p q).trans ?_
  rw [emb3 t ht p q]
  refine Eq.trans ?_ (normalize40_entry (V c main_v48) s b (row t.val ht p) q).symm
  rw [read0 V c t ht p q, read1 V c t ht p 0, read2 V c t 0 q, hn, hb]

theorem mem_blk (t : Fin cfg3.N) (i : S100000x40.Idx) :
    i ∈ ((cfg3.win 3).blk t).view.set ↔ ∀ a : Fin 2, win3_3.index t a * S5000x40.size a ≤ (i a).val ∧ (i a).val < win3_3.index t a * S5000x40.size a + S5000x40.size a := by
  show i ∈ ((View.whole main_v49).slice (win3_3.rect t)).set ↔ _
  rw [View.set_slice_whole, Rect.mem_set_unit]
  exact Iff.rfl

/-- Row `r` lies in the block of the point `r / 5000`. -/
theorem cover (i : S100000x40.Idx) : ∃ t : Fin cfg3.N, (cfg3.win 3).flush t = true ∧ i ∈ ((cfg3.win 3).blk t).view.set := by
  have hi0 : (i 0).val < 100000 := (i 0).isLt
  have hi1 : (i 1).val < 40 := (i 1).isLt
  have hlt : (i 0).val / 5000 < 20 := by omega
  obtain ⟨-, -, -, -, -, -, e0, e1, -⟩ := idx_facts (⟨(i 0).val / 5000, hlt⟩ : Fin cfg3.N)
  refine ⟨⟨(i 0).val / 5000, hlt⟩, flush3_3 _, ?_⟩
  rw [mem_blk]
  intro a
  match a with
  | ⟨0, _⟩ =>
    show win3_3.index ⟨(i 0).val / 5000, hlt⟩ (0 : Fin 2) * 5000 ≤ (i 0).val ∧ (i 0).val < win3_3.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win3_3.index ⟨(i 0).val / 5000, hlt⟩ (1 : Fin 2) * 40 ≤ (i 1).val ∧ (i 1).val < win3_3.index ⟨(i 0).val / 5000, hlt⟩ (1 : Fin 2) * 40 + 40
    rw [e1]
    omega

/-- THE RESULT ARRAY after the launch is the scaled and biased array the launch found. -/
theorem array_eq (c : Dev nD) (s : FVec Ideal Cert.ReferenceIdeal.S100000 .f32) (b : FVec Ideal Cert.ReferenceIdeal.S40 .f32)
    (hn : ∀ (P : Fin 100000) (u : Fin 1), V c main_v10 (ix2 P u) = s (ix1 P))
    (hb : ∀ (u : Fin 1) (q : Fin 40), V c main_v15 (ix2 u q) = b (ix1 q)) :
    (dat3 V c).arrAt 3 cfg3.N = normalize40 (V c main_v48) s b :=
  (dat3 V c).arrAt_eq_of_cover 3 _ (fun t _ => flushed_eq V c s b hn hb t) cover

end Cert.KernelIdeal.Region3

end
-- ==== Proof.Carry.lean ====
/-
  What rides unchanged through the program. The per-node factor column, the three bias rows, the two masks read as
  numbers, the later weights and the two edge lists are all in place at the first launch's entry. No later stretch of
  host operations writes any of them, and a launch leaves every buffer other than its result as it found it (an input
  array is read, never written). So at each later boundary each of these buffers still holds what it held at the
  first launch's entry: the equations below, one per (boundary, buffer) that the value proof reads.
-/
import proofs.«171823_j91087666413880_1_alg».proof.Proof.KernelIdealFrameP

set_option maxRecDepth 16384

noncomputable section

namespace Cert.KernelIdeal.Carry

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- No operation of the stretch writes the buffer: the stretch's operations write their own results only. -/
macro "untouched" : tactic => `(tactic| (
  refine StableHlo.after_of_forall_not_mem _ _ (List.forall_iff_forall_mem.mp ?_)
  simp only [hostOps1, hostOps2, hostOps3, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## Through the first launch and the stretch after it (boundary 3 back to boundary 1) -/

theorem at2_arg1 (c : Dev nD) : W2 m ρ c (Proc.devRef .tc main_arg1) = W1 m ρ c (Proc.devRef .tc main_arg1) := W2_of_ne m ρ c main_arg1 (by decide)
theorem at2_arg2 (c : Dev nD) : W2 m ρ c (Proc.devRef .tc main_arg2) = W1 m ρ c (Proc.devRef .tc main_arg2) := W2_of_ne m ρ c main_arg2 (by decide)

theorem at3_v10 (c : Dev nD) : W3 m ρ c (Proc.devRef .tc main_v10) = W1 m ρ c (Proc.devRef .tc main_v10) :=
  (show StableHlo.after hostOps1 (W2 m ρ c) (Proc.devRef .tc main_v10) = W2 m ρ c (Proc.devRef .tc main_v10) by untouched).trans (W2_of_ne m ρ c main_v10 (by decide))
theorem at3_v11 (c : Dev nD) : W3 m ρ c (Proc.devRef .tc main_v11) = W1 m ρ c (Proc.devRef .tc main_v11) :=
  (show StableHlo.after hostOps1 (W2 m ρ c) (Proc.devRef .tc main_v11) = W2 m ρ c (Proc.devRef .tc main_v11) by untouched).trans (W2_of_ne m ρ c main_v11 (by decide))
theorem at3_v12 (c : Dev nD) : W3 m ρ c (Proc.devRef .tc main_v12) = W1 m ρ c (Proc.devRef .tc main_v12) :=
  (show StableHlo.after hostOps1 (W2 m ρ c) (Proc.devRef .tc main_v12) = W2 m ρ c (Proc.devRef .tc main_v12) by untouched).trans (W2_of_ne m ρ c main_v12 (by decide))
theorem at3_v13 (c : Dev nD) : W3 m ρ c (Proc.devRef .tc main_v13) = W1 m ρ c (Proc.devRef .tc main_v13) :=
  (show StableHlo.after hostOps1 (W2 m ρ c) (Proc.devRef .tc main_v13) = W2 m ρ c (Proc.devRef .tc main_v13) by untouched).trans (W2_of_ne m ρ c main_v13 (by decide))
theorem at3_v14 (c : Dev nD) : W3 m ρ c (Proc.devRef .tc main_v14) = W1 m ρ c (Proc.devRef .tc main_v14) :=
  (show StableHlo.after hostOps1 (W2 m ρ c) (Proc.devRef .tc main_v14) = W2 m ρ c (Proc.devRef .tc main_v14) by untouched).trans (W2_of_ne m ρ c main_v14 (by decide))
theorem at3_v15 (c : Dev nD) : W3 m ρ c (Proc.devRef .tc main_v15) = W1 m ρ c (Proc.devRef .tc main_v15) :=
  (show StableHlo.after hostOps1 (W2 m ρ c) (Proc.devRef .tc main_v15) = W2 m ρ c (Proc.devRef .tc main_v15) by untouched).trans (W2_of_ne m ρ c main_v15 (by decide))
theorem at3_arg7 (c : Dev nD) : W3 m ρ c (Proc.devRef .tc main_arg7) = W1 m ρ c (Proc.devRef .tc main_arg7) :=
  (show StableHlo.after hostOps1 (W2 m ρ c) (Proc.devRef .tc main_arg7) = W2 m ρ c (Proc.devRef .tc main_arg7) by untouched).trans (W2_of_ne m ρ c main_arg7 (by decide))
theorem at3_arg9 (c : Dev nD) : W3 m ρ c (Proc.devRef .tc main_arg9) = W1 m ρ c (Proc.devRef .tc main_arg9) :=
  (show StableHlo.after hostOps1 (W2 m ρ c) (Proc.devRef .tc main_arg9) = W2 m ρ c (Proc.devRef .tc main_arg9) by untouched).trans (W2_of_ne m ρ c main_arg9 (by decide))
theorem at3_arg1 (c : Dev nD) : W3 m ρ c (Proc.devRef .tc main_arg1) = W1 m ρ c (Proc.devRef .tc main_arg1) :=
  (show StableHlo.after hostOps1 (W2 m ρ c) (Proc.devRef .tc main_arg1) = W2 m ρ c (Proc.devRef .tc main_arg1) by untouched).trans (at2_arg1 m ρ c)
theorem at3_arg2 (c : Dev nD) : W3 m ρ c (Proc.devRef .tc main_arg2) = W1 m ρ c (Proc.devRef .tc main_arg2) :=
  (show StableHlo.after hostOps1 (W2 m ρ c) (Proc.devRef .tc main_arg2) = W2 m ρ c (Proc.devRef .tc main_arg2) by untouched).trans (at2_arg2 m ρ c)

/-! ## Through the second launch and the stretch after it (boundary 5 back to boundary 3) -/

/-- The factor column is the second launch's input array 1: the launch leaves it as entered. -/
theorem at4_v10 (c : Dev nD) : W4 m ρ c (Proc.devRef .tc main_v10) = W1 m ρ c (Proc.devRef .tc main_v10) :=
  ((W4_arr m ρ c 1).trans (((dat1 (V3 m ρ) c).arrAt_in 1 rfl _).trans (A_eq1 (V3 m ρ) c 1))).trans (at3_v10 m ρ c)
theorem at4_arg1 (c : Dev nD) : W4 m ρ c (Proc.devRef .tc main_arg1) = W1 m ρ c (Proc.devRef .tc main_arg1) :=
  (W4_of_ne m ρ c main_arg1 (by decide)).trans (at3_arg1 m ρ c)
theorem at4_arg2 (c : Dev nD) : W4 m ρ c (Proc.devRef .tc main_arg2) = W1 m ρ c (Proc.devRef .tc main_arg2) :=
  (W4_of_ne m ρ c main_arg2 (by decide)).trans (at3_arg2 m ρ c)

theorem at5_v10 (c : Dev nD) : W5 m ρ c (Proc.devRef .tc main_v10) = W1 m ρ c (Proc.devRef .tc main_v10) :=
  (show StableHlo.after hostOps2 (W4 m ρ c) (Proc.devRef .tc main_v10) = W4 m ρ c (Proc.devRef .tc main_v10) by untouched).trans (at4_v10 m ρ c)
theorem at5_v12 (c : Dev nD) : W5 m ρ c (Proc.devRef .tc main_v12) = W1 m ρ c (Proc.devRef .tc main_v12) :=
  (show StableHlo.after hostOps2 (W4 m ρ c) (Proc.devRef .tc main_v12) = W4 m ρ c (Proc.devRef .tc main_v12) by untouched).trans
    ((W4_of_ne m ρ c main_v12 (by decide)).trans (at3_v12 m ρ c))
theorem at5_v14 (c : Dev nD) : W5 m ρ c (Proc.devRef .tc main_v14) = W1 m ρ c (Proc.devRef .tc main_v14) :=
  (show StableHlo.after hostOps2 (W4 m ρ c) (Proc.devRef .tc main_v14) = W4 m ρ c (Proc.devRef .tc main_v14) by untouched).trans
    ((W4_of_ne m ρ c main_v14 (by decide)).trans (at3_v14 m ρ c))
theorem at5_v15 (c : Dev nD) : W5 m ρ c (Proc.devRef .tc main_v15) = W1 m ρ c (Proc.devRef .tc main_v15) :=
  (show StableHlo.after hostOps2 (W4 m ρ c) (Proc.devRef .tc main_v15) = W4 m ρ c (Proc.devRef .tc main_v15) by untouched).trans
    ((W4_of_ne m ρ c main_v15 (by decide)).trans (at3_v15 m ρ c))
theorem at5_arg9 (c : Dev nD) : W5 m ρ c (Proc.devRef .tc main_arg9) = W1 m ρ c (Proc.devRef .tc main_arg9) :=
  (show StableHlo.after hostOps2 (W4 m ρ c) (Proc.devRef .tc main_arg9) = W4 m ρ c (Proc.devRef .tc main_arg9) by untouched).trans
    ((W4_of_ne m ρ c main_arg9 (by decide)).trans (at3_arg9 m ρ c))
theorem at5_arg1 (c : Dev nD) : W5 m ρ c (Proc.devRef .tc main_arg1) = W1 m ρ c (Proc.devRef .tc main_arg1) :=
  (show StableHlo.after hostOps2 (W4 m ρ c) (Proc.devRef .tc main_arg1) = W4 m ρ c (Proc.devRef .tc main_arg1) by untouched).trans (at4_arg1 m ρ c)
theorem at5_arg2 (c : Dev nD) : W5 m ρ c (Proc.devRef .tc main_arg2) = W1 m ρ c (Proc.devRef .tc main_arg2) :=
  (show StableHlo.after hostOps2 (W4 m ρ c) (Proc.devRef .tc main_arg2) = W4 m ρ c (Proc.devRef .tc main_arg2) by untouched).trans (at4_arg2 m ρ c)

/-! ## Through the third launch and the stretch after it (boundary 7 back to boundary 5) -/

/-- The factor column is the third launch's input array 1 as well. -/
theorem at6_v10 (c : Dev nD) : W6 m ρ c (Proc.devRef .tc main_v10) = W1 m ρ c (Proc.devRef .tc main_v10) :=
  ((W6_arr m ρ c 1).trans (((dat2 (V5 m ρ) c).arrAt_in 1 rfl _).trans (A_eq2 (V5 m ρ) c 1))).trans (at5_v10 m ρ c)
theorem at6_arg1 (c : Dev nD) : W6 m ρ c (Proc.devRef .tc main_arg1) = W1 m ρ c (Proc.devRef .tc main_arg1) :=
  (W6_of_ne m ρ c main_arg1 (by decide)).trans (at5_arg1 m ρ c)
theorem at6_arg2 (c : Dev nD) : W6 m ρ c (Proc.devRef .tc main_arg2) = W1 m ρ c (Proc.devRef .tc main_arg2) :=
  (W6_of_ne m ρ c main_arg2 (by decide)).trans (at5_arg2 m ρ c)

theorem at7_v10 (c : Dev nD) : W7 m ρ c (Proc.devRef .tc main_v10) = W1 m ρ c (Proc.devRef .tc main_v10) :=
  (show StableHlo.after hostOps3 (W6 m ρ c) (Proc.devRef .tc main_v10) = W6 m ρ c (Proc.devRef .tc main_v10) by untouched).trans (at6_v10 m ρ c)
theorem at7_v15 (c : Dev nD) : W7 m ρ c (Proc.devRef .tc main_v15) = W1 m ρ c (Proc.devRef .tc main_v15) :=
  (show StableHlo.after hostOps3 (W6 m ρ c) (Proc.devRef .tc main_v15) = W6 m ρ c (Proc.devRef .tc main_v15) by untouched).trans
    ((W6_of_ne m ρ c main_v15 (by decide)).trans (at5_v15 m ρ c))

end Cert.KernelIdeal.Carry

end
-- ==== Proof.HostStages.lean ====
/-
  The host chains the kernel program shares with the reference — the per-node factor and the gather / scatter-add
  aggregation — spelt with the kernel program's own dimension records, over variables, and identified with the
  reference's spelling (Layers.lean): the two programs' records have the same lists field by field, so each chain is the
  same function. The value proof then carries an aggregation as ONE function applied to equal arguments and never opens
  a gather or a scatter.
-/
import proofs.«171823_j91087666413880_1_alg».proof.Proof.Gen.KernelIdeal
import proofs.«171823_j91087666413880_1_alg».proof.Proof.Layers

noncomputable section

namespace Cert.KernelIdeal.HostStages

open Cert.KernelIdeal Cert.KernelIdeal.Gen Idealize.ShloMosaic

/-- The per-node factor, in the kernel program's spelling. -/
def scaleK (dst : IVec S1600000 32) : FVec Ideal S100000 .f32 :=
  Host.divf (broadcastInDim S100000 ![] bcast_S_S100000 (constant (F := Ideal) S_ .f32 0x3F800000#32))
    (addf (maximumf (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32)))
      (broadcastInDim S100000 ![] bcast_S_S100000 (constant (F := Ideal) S_ .f32 0x3F800000#32)))
      (broadcastInDim S100000 ![] bcast_S_S100000 (constant (F := Ideal) S_ .f32 0x00000000#32)))

/-- The gather's row numbers as a column, in the kernel program's spelling. -/
def gatherIdxK (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The aggregation of width 128, in the kernel program's spelling. -/
def aggregate128K (x : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x (gatherIdxK src))

/-- The aggregation of width 40, in the kernel program's spelling. -/
def aggregate40K (x : FVec Ideal S100000x40 .f32) (src dst : IVec S1600000 32) : FVec Ideal S100000x40 .f32 :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 dst)
    (Host.gather gather_S100000x40_S1600000x1_S1600000x40_1_0_n_n_0_1_140 x (gatherIdxK src))

/-! The two programs' dimension records are the same lists. -/

theorem scatter1_eq : scatter_S100000_S1600000x1_S1600000_n_0_0_1 = Cert.ReferenceIdeal.scatter_S100000_S1600000x1_S1600000_n_0_0_1 := rfl
theorem scatter128_eq : scatter_S100000x128_S1600000x1_S1600000x128_1_0_0_1 = Cert.ReferenceIdeal.scatter_S100000x128_S1600000x1_S1600000x128_1_0_0_1 := rfl
theorem scatter40_eq : scatter_S100000x40_S1600000x1_S1600000x40_1_0_0_1 = Cert.ReferenceIdeal.scatter_S100000x40_S1600000x1_S1600000x40_1_0_0_1 := rfl
theorem gather128_eq : gather_S100000x128_S1600000x1_S1600000x128_1_0_n_n_0_1_1128 = Cert.ReferenceIdeal.gather_S100000x128_S1600000x1_S1600000x128_1_0_n_n_0_1_1128 := rfl
theorem gather40_eq : gather_S100000x40_S1600000x1_S1600000x40_1_0_n_n_0_1_140 = Cert.ReferenceIdeal.gather_S100000x40_S1600000x1_S1600000x40_1_0_n_n_0_1_140 := rfl

theorem scaleK_eq (dst : IVec S1600000 32) : scaleK dst = Cert.ReferenceIdeal.Stages.scale dst := by
  unfold scaleK Cert.ReferenceIdeal.Stages.scale
  rw [scatter1_eq]

theorem gatherIdxK_eq (src : IVec S1600000 32) : gatherIdxK src = Cert.ReferenceIdeal.Stages.gatherIdx src := rfl

theorem aggregate128K_eq (x : FVec Ideal S100000x128 .f32) (src dst : IVec S1600000 32) :
    aggregate128K x src dst = Cert.ReferenceIdeal.Stages.aggregate128 x src dst := by
  unfold aggregate128K Cert.ReferenceIdeal.Stages.aggregate128
  rw [scatter128_eq, gather128_eq, gatherIdxK_eq]

theorem aggregate40K_eq (x : FVec Ideal S100000x40 .f32) (src dst : IVec S1600000 32) :
    aggregate40K x src dst = Cert.ReferenceIdeal.Stages.aggregate40 x src dst := by
  unfold aggregate40K Cert.ReferenceIdeal.Stages.aggregate40
  rw [scatter40_eq, gather40_eq, gatherIdxK_eq]

end Cert.KernelIdeal.HostStages

end
-- ==== Proof.Stretches.lean ====
/-
  The stretches of host operations, read at the buffers the launches take in.
  * Before the first launch: the features and the first weight are the arguments themselves; the factor buffer is the
    per-node factor `1 / (max(deg, 1) + 0)` reshaped to a column, the three bias buffers the biases reshaped to rows, the
    two mask buffers the mask bits converted to numbers — read here entry by entry.
  * Before each later launch: the aggregation (rows gathered at `src`, summed into rows `dst`) of the previous launch's
    result, as ONE function of that result and the two edge lists.
-/
import proofs.«171823_j91087666413880_1_alg».proof.Proof.KernelIdealFrameP
import proofs.«171823_j91087666413880_1_alg».proof.Proof.HostStages
import proofs.«171823_j91087666413880_1_alg».proof.Proof.LibColumnLayout
import Idealize.ShloMosaic.Lib.ValueLayout
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.ShloMosaic.ValueIdx Idealize.SL.Sem
open Idealize.ShloMosaic.StableHlo
open Cert.KernelIdeal.HostStages

variable (m : (ℓ : Loc nD τ sig) → Buf (Elt Ideal) ℓ) (ρ : Dev nD → PrngReg)

/-! ## Before the first launch: the arguments no operation writes -/

theorem W1_arg0 (c : Dev nD) : W1 m ρ c (Proc.devRef .tc main_arg0) = (m ((c : Thread nD τ).loc main_arg0)) := by
  show StableHlo.after hostOps0 (W0 m ρ c) (Proc.devRef .tc main_arg0) = _
  simp only [hostOps0]; after_results_simp <;> rfl
theorem W1_arg1 (c : Dev nD) : W1 m ρ c (Proc.devRef .tc main_arg1) = (m ((c : Thread nD τ).loc main_arg1)) := by
  show StableHlo.after hostOps0 (W0 m ρ c) (Proc.devRef .tc main_arg1) = _
  simp only [hostOps0]; after_results_simp <;> rfl
theorem W1_arg2 (c : Dev nD) : W1 m ρ c (Proc.devRef .tc main_arg2) = (m ((c : Thread nD τ).loc main_arg2)) := by
  show StableHlo.after hostOps0 (W0 m ρ c) (Proc.devRef .tc main_arg2) = _
  simp only [hostOps0]; after_results_simp <;> rfl
theorem W1_arg5 (c : Dev nD) : W1 m ρ c (Proc.devRef .tc main_arg5) = (m ((c : Thread nD τ).loc main_arg5)) := by
  show StableHlo.after hostOps0 (W0 m ρ c) (Proc.devRef .tc main_arg5) = _
  simp only [hostOps0]; after_results_simp <;> rfl
theorem W1_arg7 (c : Dev nD) : W1 m ρ c (Proc.devRef .tc main_arg7) = (m ((c : Thread nD τ).loc main_arg7)) := by
  show StableHlo.after hostOps0 (W0 m ρ c) (Proc.devRef .tc main_arg7) = _
  simp only [hostOps0]; after_results_simp <;> rfl
theorem W1_arg9 (c : Dev nD) : W1 m ρ c (Proc.devRef .tc main_arg9) = (m ((c : Thread nD τ).loc main_arg9)) := by
  show StableHlo.after hostOps0 (W0 m ρ c) (Proc.devRef .tc main_arg9) = _
  simp only [hostOps0]; after_results_simp <;> rfl

/-! ## Before the first launch: what the operations compute -/

/-- The factor buffer is the per-node factor as a column. -/
theorem W1_v10_eq (c : Dev nD) : W1 m ρ c (Proc.devRef .tc main_v10)
    = fun i => shapeCast S100000x1 (scaleK (m ((c : Thread nD τ).loc main_arg2))) shapeCasts_S100000_S100000x1 i := by
  show StableHlo.after hostOps0 (W0 m ρ c) (Proc.devRef .tc main_v10) = _
  simp only [hostOps0]; after_results_simp <;> rfl

theorem W1_v10 (c : Dev nD) (P : Fin 100000) (u : Fin 1) :
    W1 m ρ c (Proc.devRef .tc main_v10) (ix2 P u) = Cert.ReferenceIdeal.Stages.scale (m ((c : Thread nD τ).loc main_arg2)) (ix1 P) := by
  rw [W1_v10_eq m ρ c]
  show shapeCast S100000x1 (scaleK (m ((c : Thread nD τ).loc main_arg2))) shapeCasts_S100000_S100000x1 (ix2 P u) = _
  rw [shapeCast_a_a1_apply, scaleK_eq]

/-- The bias buffers are the biases as rows. -/
theorem W1_v13_eq (c : Dev nD) : W1 m ρ c (Proc.devRef .tc main_v13)
    = fun i => shapeCast S1x128 (m ((c : Thread nD τ).loc main_arg6)) shapeCasts_S128_S1x128 i := by
  show StableHlo.after hostOps0 (W0 m ρ c) (Proc.devRef .tc main_v13) = _
  simp only [hostOps0]; after_results_simp <;> rfl
theorem W1_v13 (c : Dev nD) (u : Fin 1) (j : Fin 128) :
    W1 m ρ c (Proc.devRef .tc main_v13) (ix2 u j) = (m ((c : Thread nD τ).loc main_arg6)) (ix1 j) := by
  rw [W1_v13_eq m ρ c]
  show shapeCast S1x128 (m ((c : Thread nD τ).loc main_arg6)) shapeCasts_S128_S1x128 (ix2 u j) = _
  rw [shapeCast_a_1a_apply]

theorem W1_v14_eq (c : Dev nD) : W1 m ρ c (Proc.devRef .tc main_v14)
    = fun i => shapeCast S1x128 (m ((c : Thread nD τ).loc main_arg8)) shapeCasts_S128_S1x128 i := by
  show StableHlo.after hostOps0 (W0 m ρ c) (Proc.devRef .tc main_v14) = _
  simp only [hostOps0]; after_results_simp <;> rfl
theorem W1_v14 (c : Dev nD) (u : Fin 1) (j : Fin 128) :
    W1 m ρ c (Proc.devRef .tc main_v14) (ix2 u j) = (m ((c : Thread nD τ).loc main_arg8)) (ix1 j) := by
  rw [W1_v14_eq m ρ c]
  show shapeCast S1x128 (m ((c : Thread nD τ).loc main_arg8)) shapeCasts_S128_S1x128 (ix2 u j) = _
  rw [shapeCast_a_1a_apply]

theorem W1_v15_eq (c : Dev nD) : W1 m ρ c (Proc.devRef .tc main_v15)
    = fun i => shapeCast S1x40 (m ((c : Thread nD τ).loc main_arg10)) shapeCasts_S40_S1x40 i := by
  show StableHlo.after hostOps0 (W0 m ρ c) (Proc.devRef .tc main_v15) = _
  simp only [hostOps0]; after_results_simp <;> rfl
theorem W1_v15 (c : Dev nD) (u : Fin 1) (q : Fin 40) :
    W1 m ρ c (Proc.devRef .tc main_v15) (ix2 u q) = (m ((c : Thread nD τ).loc main_arg10)) (ix1 q) := by
  rw [W1_v15_eq m ρ c]
  show shapeCast S1x40 (m ((c : Thread nD τ).loc main_arg10)) shapeCasts_S40_S1x40 (ix2 u q) = _
  rw [shapeCast_a_1a_apply]

/-- The mask buffers are the mask bits as numbers. -/
theorem W1_v11_eq (c : Dev nD) : W1 m ρ c (Proc.devRef .tc main_v11) = uitofp (F := Ideal) .f32 (m ((c : Thread nD τ).loc main_arg3)) := by
  show StableHlo.after hostOps0 (W0 m ρ c) (Proc.devRef .tc main_v11) = _
  simp only [hostOps0]; after_results_simp <;> rfl
theorem W1_v11 (c : Dev nD) (P : Fin 100000) (j : Fin 128) :
    W1 m ρ c (Proc.devRef .tc main_v11) (ix2 P j) = FloatOps.uitofp (F := Ideal) .f32 ((m ((c : Thread nD τ).loc main_arg3)) (ix2 P j)) := by
  rw [W1_v11_eq m ρ c]; rfl

theorem W1_v12_eq (c : Dev nD) : W1 m ρ c (Proc.devRef .tc main_v12) = uitofp (F := Ideal) .f32 (m ((c : Thread nD τ).loc main_arg4)) := by
  show StableHlo.after hostOps0 (W0 m ρ c) (Proc.devRef .tc main_v12) = _
  simp only [hostOps0]; after_results_simp <;> rfl
theorem W1_v12 (c : Dev nD) (P : Fin 100000) (j : Fin 128) :
    W1 m ρ c (Proc.devRef .tc main_v12) (ix2 P j) = FloatOps.uitofp (F := Ideal) .f32 ((m ((c : Thread nD τ).loc main_arg4)) (ix2 P j)) := by
  rw [W1_v12_eq m ρ c]; rfl

/-! ## Between the launches: the aggregation of the previous launch's result -/

theorem V3_v26 (c : Dev nD) : V3 m ρ c main_v26
    = aggregate128K (W2 m ρ c (Proc.devRef .tc main_v16)) (W2 m ρ c (Proc.devRef .tc main_arg1)) (W2 m ρ c (Proc.devRef .tc main_arg2)) := by
  show StableHlo.after hostOps1 (W2 m ρ c) (Proc.devRef .tc main_v26) = _
  simp only [hostOps1]; after_results_simp <;> rfl

theorem V5_v37 (c : Dev nD) : V5 m ρ c main_v37
    = aggregate128K (W4 m ρ c (Proc.devRef .tc main_v27)) (W4 m ρ c (Proc.devRef .tc main_arg1)) (W4 m ρ c (Proc.devRef .tc main_arg2)) := by
  show StableHlo.after hostOps2 (W4 m ρ c) (Proc.devRef .tc main_v37) = _
  simp only [hostOps2]; after_results_simp <;> rfl

theorem V7_v48 (c : Dev nD) : V7 m ρ c main_v48
    = aggregate40K (W6 m ρ c (Proc.devRef .tc main_v38)) (W6 m ρ c (Proc.devRef .tc main_arg1)) (W6 m ρ c (Proc.devRef .tc main_arg2)) := by
  show StableHlo.after hostOps3 (W6 m ρ c) (Proc.devRef .tc main_v48) = _
  simp only [hostOps3]; after_results_simp <;> rfl

end Cert.KernelIdeal.Stretch

end
-- ==== Proof.KernelValue.lean ====
/-
  The kernel program's result as the reference's nest of stages.
  The result buffer at the last boundary is the last launch's result array. Walking back: that array is the third
  aggregation scaled and biased (the last launch); the third aggregation is the aggregation of the third launch's
  result (the stretch before it); that result is the hidden round of the second aggregation (the third launch); and so
  on down to the first launch's product of the features with the first weight. At each launch the factor column, the
  bias row and the mask numbers it reads are still what the first stretch computed (they ride unchanged), and each
  aggregation is the same function in both programs. The nest so obtained is the reference's `network`.
-/
import proofs.«171823_j91087666413880_1_alg».proof.Proof.KernelRun
import proofs.«171823_j91087666413880_1_alg».proof.Proof.Region0
import proofs.«171823_j91087666413880_1_alg».proof.Proof.Region1
import proofs.«171823_j91087666413880_1_alg».proof.Proof.Region2
import proofs.«171823_j91087666413880_1_alg».proof.Proof.Region3
import proofs.«171823_j91087666413880_1_alg».proof.Proof.Carry
import proofs.«171823_j91087666413880_1_alg».proof.Proof.Stretches

set_option maxRecDepth 16384

noncomputable section

namespace Cert.KernelIdeal.ResultValue

open Cert.KernelIdeal Cert.KernelIdeal.Gen Idealize.ShloMosaic Idealize.ShloMosaic.TcCoe Idealize.ShloMosaic.ValueIdx Idealize.SL.Sem
open Cert.KernelIdeal.HostStages

variable (m : (ℓ : Loc nD τ sig) → Buf (Elt Ideal) ℓ) (ρ : Dev nD → PrngReg)

/-! ## The first launch -/

/-- The first launch's result is the product of the features with the first weight. -/
theorem lin0_eq (c : Dev nD) : W2 m ρ c (Proc.devRef .tc main_v16) = Cert.ReferenceIdeal.Stages.dense128 (m ((c : Thread nD τ).loc main_arg0)) (m ((c : Thread nD τ).loc main_arg5)) :=
  ((W2_arr m ρ c 2).trans (Cert.KernelIdeal.Region0.array_eq (V1 m ρ) c)).trans
    (congrArg₂ Cert.ReferenceIdeal.Stages.dense128 (Stretch.W1_arg0 m ρ c) (Stretch.W1_arg5 m ρ c))

/-- The first aggregation. -/
theorem agg0_eq (c : Dev nD) : V3 m ρ c main_v26
    = Cert.ReferenceIdeal.Stages.aggregate128 (Cert.ReferenceIdeal.Stages.dense128 (m ((c : Thread nD τ).loc main_arg0)) (m ((c : Thread nD τ).loc main_arg5))) (m ((c : Thread nD τ).loc main_arg1)) (m ((c : Thread nD τ).loc main_arg2)) :=
  (Stretch.V3_v26 m ρ c).trans ((aggregate128K_eq _ _ _).trans (by
    rw [lin0_eq m ρ c, Carry.at2_arg1 m ρ c, Carry.at2_arg2 m ρ c, Stretch.W1_arg1 m ρ c, Stretch.W1_arg2 m ρ c]))

/-! ## The second launch -/

/-- The second launch's result is the first hidden round of the first aggregation. -/
theorem lin1_eq (c : Dev nD) : W4 m ρ c (Proc.devRef .tc main_v27)
    = Cert.ReferenceIdeal.Stages.round128 (Cert.ReferenceIdeal.Stages.aggregate128 (Cert.ReferenceIdeal.Stages.dense128 (m ((c : Thread nD τ).loc main_arg0)) (m ((c : Thread nD τ).loc main_arg5))) (m ((c : Thread nD τ).loc main_arg1)) (m ((c : Thread nD τ).loc main_arg2)))
        (Cert.ReferenceIdeal.Stages.scale (m ((c : Thread nD τ).loc main_arg2))) (m ((c : Thread nD τ).loc main_arg6)) (m ((c : Thread nD τ).loc main_arg3)) (m ((c : Thread nD τ).loc main_arg7)) :=
  ((W4_arr m ρ c 5).trans (Cert.KernelIdeal.Region1.array_eq (V3 m ρ) c (Cert.ReferenceIdeal.Stages.scale (m ((c : Thread nD τ).loc main_arg2))) (m ((c : Thread nD τ).loc main_arg6)) (m ((c : Thread nD τ).loc main_arg3))
      (fun P u => (congrFun (Carry.at3_v10 m ρ c) (ix2 P u)).trans (Stretch.W1_v10 m ρ c P u))
      (fun u j => (congrFun (Carry.at3_v13 m ρ c) (ix2 u j)).trans (Stretch.W1_v13 m ρ c u j))
      (fun P j => (congrFun (Carry.at3_v11 m ρ c) (ix2 P j)).trans (Stretch.W1_v11 m ρ c P j)))).trans (by
    rw [agg0_eq m ρ c, show V3 m ρ c main_arg7 = (m ((c : Thread nD τ).loc main_arg7)) from (Carry.at3_arg7 m ρ c).trans (Stretch.W1_arg7 m ρ c)])

/-- The second aggregation. -/
theorem agg1_eq (c : Dev nD) : V5 m ρ c main_v37
    = Cert.ReferenceIdeal.Stages.aggregate128 (Cert.ReferenceIdeal.Stages.round128 (Cert.ReferenceIdeal.Stages.aggregate128 (Cert.ReferenceIdeal.Stages.dense128 (m ((c : Thread nD τ).loc main_arg0)) (m ((c : Thread nD τ).loc main_arg5))) (m ((c : Thread nD τ).loc main_arg1)) (m ((c : Thread nD τ).loc main_arg2)))
        (Cert.ReferenceIdeal.Stages.scale (m ((c : Thread nD τ).loc main_arg2))) (m ((c : Thread nD τ).loc main_arg6)) (m ((c : Thread nD τ).loc main_arg3)) (m ((c : Thread nD τ).loc main_arg7))) (m ((c : Thread nD τ).loc main_arg1)) (m ((c : Thread nD τ).loc main_arg2)) :=
  (Stretch.V5_v37 m ρ c).trans ((aggregate128K_eq _ _ _).trans (by
    rw [lin1_eq m ρ c, Carry.at4_arg1 m ρ c, Carry.at4_arg2 m ρ c, Stretch.W1_arg1 m ρ c, Stretch.W1_arg2 m ρ c]))

/-! ## The third launch -/

/-- The third launch's result is the second hidden round of the second aggregation. -/
theorem lin2_eq (c : Dev nD) : W6 m ρ c (Proc.devRef .tc main_v38)
    = Cert.ReferenceIdeal.Stages.round40 (Cert.ReferenceIdeal.Stages.aggregate128 (Cert.ReferenceIdeal.Stages.round128 (Cert.ReferenceIdeal.Stages.aggregate128 (Cert.ReferenceIdeal.Stages.dense128 (m ((c : Thread nD τ).loc main_arg0)) (m ((c : Thread nD τ).loc main_arg5))) (m ((c : Thread nD τ).loc main_arg1)) (m ((c : Thread nD τ).loc main_arg2)))
        (Cert.ReferenceIdeal.Stages.scale (m ((c : Thread nD τ).loc main_arg2))) (m ((c : Thread nD τ).loc main_arg6)) (m ((c : Thread nD τ).loc main_arg3)) (m ((c : Thread nD τ).loc main_arg7))) (m ((c : Thread nD τ).loc main_arg1)) (m ((c : Thread nD τ).loc main_arg2)))
        (Cert.ReferenceIdeal.Stages.scale (m ((c : Thread nD τ).loc main_arg2))) (m ((c : Thread nD τ).loc main_arg8)) (m ((c : Thread nD τ).loc main_arg4)) (m ((c : Thread nD τ).loc main_arg9)) :=
  ((W6_arr m ρ c 5).trans (Cert.KernelIdeal.Region2.array_eq (V5 m ρ) c (Cert.ReferenceIdeal.Stages.scale (m ((c : Thread nD τ).loc main_arg2))) (m ((c : Thread nD τ).loc main_arg8)) (m ((c : Thread nD τ).loc main_arg4))
      (fun P u => (congrFun (Carry.at5_v10 m ρ c) (ix2 P u)).trans (Stretch.W1_v10 m ρ c P u))
      (fun u j => (congrFun (Carry.at5_v14 m ρ c) (ix2 u j)).trans (Stretch.W1_v14 m ρ c u j))
      (fun P j => (congrFun (Carry.at5_v12 m ρ c) (ix2 P j)).trans (Stretch.W1_v12 m ρ c P j)))).trans (by
    rw [agg1_eq m ρ c, show V5 m ρ c main_arg9 = (m ((c : Thread nD τ).loc main_arg9)) from (Carry.at5_arg9 m ρ c).trans (Stretch.W1_arg9 m ρ c)])

/-- The third aggregation. -/
theorem agg2_eq (c : Dev nD) : V7 m ρ c main_v48
    = Cert.ReferenceIdeal.Stages.aggregate40 (Cert.ReferenceIdeal.Stages.round40 (Cert.ReferenceIdeal.Stages.aggregate128 (Cert.ReferenceIdeal.Stages.round128 (Cert.ReferenceIdeal.Stages.aggregate128 (Cert.ReferenceIdeal.Stages.dense128 (m ((c : Thread nD τ).loc main_arg0)) (m ((c : Thread nD τ).loc main_arg5))) (m ((c : Thread nD τ).loc main_arg1)) (m ((c : Thread nD τ).loc main_arg2)))
        (Cert.ReferenceIdeal.Stages.scale (m ((c : Thread nD τ).loc main_arg2))) (m ((c : Thread nD τ).loc main_arg6)) (m ((c : Thread nD τ).loc main_arg3)) (m ((c : Thread nD τ).loc main_arg7))) (m ((c : Thread nD τ).loc main_arg1)) (m ((c : Thread nD τ).loc main_arg2)))
        (Cert.ReferenceIdeal.Stages.scale (m ((c : Thread nD τ).loc main_arg2))) (m ((c : Thread nD τ).loc main_arg8)) (m ((c : Thread nD τ).loc main_arg4)) (m ((c : Thread nD τ).loc main_arg9))) (m ((c : Thread nD τ).loc main_arg1)) (m ((c : Thread nD τ).loc main_arg2)) :=
  (Stretch.V7_v48 m ρ c).trans ((aggregate40K_eq _ _ _).trans (by
    rw [lin2_eq m ρ c, Carry.at6_arg1 m ρ c, Carry.at6_arg2 m ρ c, Stretch.W1_arg1 m ρ c, Stretch.W1_arg2 m ρ c]))

/-! ## The last launch, and the whole -/

/-- THE RESULT: the result buffer at the last boundary holds the reference's network of the launch contents. -/
theorem result_eq (c : Dev nD) : W8 m ρ c (Proc.devRef .tc main_v49)
    = Cert.ReferenceIdeal.Stages.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  ((W8_arr m ρ c 3).trans (Cert.KernelIdeal.Region3.array_eq (V7 m ρ) c (Cert.ReferenceIdeal.Stages.scale (m ((c : Thread nD τ).loc main_arg2))) (m ((c : Thread nD τ).loc main_arg10))
      (fun P u => (congrFun (Carry.at7_v10 m ρ c) (ix2 P u)).trans (Stretch.W1_v10 m ρ c P u))
      (fun u q => (congrFun (Carry.at7_v15 m ρ c) (ix2 u q)).trans (Stretch.W1_v15 m ρ c u q)))).trans (by
    rw [agg2_eq m ρ c]
    rfl)

/-! ## The run -/

/-- Every weakly fair execution of the kernel program terminates, nothing faulting, with its result at the reference's
    network of its arguments' launch contents, the arguments unchanged. -/
theorem run : θ_run defs (onTc (τ := τ) (main (F := Ideal))) ⟨m, fun _ => 0, ρ⟩ (fun r => ∀ c : Dev nD,
      r.2.mem ((c.tc : Thread nD τ).loc main_v49)
        = Cert.ReferenceIdeal.Stages.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩)
    (Cert.KernelIdeal.RunValue.run_result (F := Ideal) m ρ)

end Cert.KernelIdeal.ResultValue

end
-- ==== Proof.lean ====
/-
  A three-layer graph convolution with dropout, as four grid launches among host operations, against its reference.

  The mathematics. With `N = 100000` nodes and `E = 1600000` edges, both programs compute the per-node factor
  `n = 1 / (max(deg, 1) + 0)` (`deg` the scatter-add of ones over the edge targets) and then three rounds of
  "multiply by a weight, gather the rows at the edge sources and sum them into the rows of the edge targets, scale row
  `P` by `n[P]` and add the bias", the first two rounds followed by a clamp at zero and a dropout with a given mask.
  The launches do the dense part on blocks of 5000 rows: the first the product with the first weight; the second and
  third the scale, bias, clamp, dropout and the product with the next weight, fused; the last the closing scale and
  bias. On the extended reals a change of float format is the identity and a matrix product is the plain sum over the
  128 hidden units, however it is blocked, so each launch's result array is, entry by entry, the corresponding stage of
  the reference of the arrays the launch found — the one difference of spelling being the dropout: the kernel multiplies
  the clamped value by the mask bit read as 0 or 1 and by 2, the reference selects on the bit between the value over
  one half and zero; with the bit set both are the value times 2, with the bit clear both are 0 (`x · 0 = 0` for every
  extended real), so no finiteness is needed. The gather and scatter-add are the same function in both programs and are
  carried unopened. Walking the kernel program's boundaries back from its result gives the reference's nest of stages.

  The modules: Layers (the reference's stages and that its composed result is their nest), StageEntries and Payloads
  (a stage, and a launch body's arithmetic, read at one entry), DropLaw (the dropout law), Region0 … Region3 (each
  launch's result array as a stage of its entry arrays), HostStages (the shared host chains in both spellings), Carry
  and Stretches (what each buffer holds at each boundary), KernelRun (the run with the result named), KernelValue (the
  walk back). The kernel programs' frames are the generated frame certificates; the reference's frame is its generated
  run with the result dropped; the idealization rewrote nothing, so `preserves` is trivial.
-/
import proofs.«171823_j91087666413880_1_alg».proof.Defs
import proofs.«171823_j91087666413880_1_alg».proof.Proof.Gen.Kernel
import proofs.«171823_j91087666413880_1_alg».proof.Proof.Gen.Kernel.Skeleton
import proofs.«171823_j91087666413880_1_alg».proof.Proof.KernelLaunchP
import proofs.«171823_j91087666413880_1_alg».proof.Proof.Gen.Kernel.Points
import proofs.«171823_j91087666413880_1_alg».proof.Proof.KernelFrameP
import proofs.«171823_j91087666413880_1_alg».proof.Proof.Gen.KernelIdeal
import proofs.«171823_j91087666413880_1_alg».proof.Proof.Gen.KernelIdeal.Skeleton
import proofs.«171823_j91087666413880_1_alg».proof.Proof.KernelIdealLaunchP
import proofs.«171823_j91087666413880_1_alg».proof.Proof.Gen.KernelIdeal.Points
import proofs.«171823_j91087666413880_1_alg».proof.Proof.KernelIdealFrameP
import proofs.«171823_j91087666413880_1_alg».proof.Proof.Gen.ReferenceIdeal
import proofs.«171823_j91087666413880_1_alg».proof.Proof.Gen.ReferenceIdeal.Run
import proofs.«171823_j91087666413880_1_alg».proof.Proof.Gen.Pre_finite_inputs
import proofs.«171823_j91087666413880_1_alg».proof.Proof.Layers
import proofs.«171823_j91087666413880_1_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the network of those arguments. -/
theorem algebraic : Cert.algebraic_KernelIdeal_ReferenceIdeal := by
  intro m ρ m' ρ' _ hagree
  refine ⟨_, Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Stages.result_eq_stages, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
